-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S16384x2 : Shape := ⟨2, ![16384, 2]⟩
abbrev S16384x32 : Shape := ⟨2, ![16384, 32]⟩
abbrev S16384x4096 : Shape := ⟨2, ![16384, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S32x512 : Shape := ⟨2, ![32, 512]⟩
abbrev S512 : Shape := ⟨1, ![512]⟩
abbrev S512x4096 : Shape := ⟨2, ![512, 4096]⟩
abbrev S4096x51 : Shape := ⟨2, ![4096, 51]⟩
abbrev S51 : Shape := ⟨1, ![51]⟩
abbrev S22801x51 : Shape := ⟨2, ![22801, 51]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S16384x4096 : S_.BroadcastsInDim S16384x4096 (![] : Fin 0 → Fin S16384x4096.rank)
  reducesTo_S16384x4096_S_d0_1 : S16384x4096.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S512x4096 : S_.BroadcastsInDim S512x4096 (![] : Fin 0 → Fin S512x4096.rank)
  reducesTo_S512x4096_S_d0_1 : S512x4096.ReducesTo [0, 1] S_
  bcast_S_S4096x51 : S_.BroadcastsInDim S4096x51 (![] : Fin 0 → Fin S4096x51.rank)
  reducesTo_S4096x51_S_d0_1 : S4096x51.ReducesTo [0, 1] S_
  bcast_S_S51 : S_.BroadcastsInDim S51 (![] : Fin 0 → Fin S51.rank)
  reducesTo_S51_S_d0 : S51.ReducesTo [0] S_
  bcast_S_S22801x51 : S_.BroadcastsInDim S22801x51 (![] : Fin 0 → Fin S22801x51.rank)
  reducesTo_S22801x51_S_d0_1 : S22801x51.ReducesTo [0, 1] S_

variable [Facts]

def fn_part5 {F : FTy → Type} [FloatOps F] (main_v83 : IVec S_ 1) (main_v84 : FVec F S22801x51 .f32) (main_cst_32 : FVec F S_ .f32) : IVec S_ 1 :=
  let main_v85 : FVec F S22801x51 .f32 := broadcastInDim S22801x51 ![] bcast_S_S22801x51 main_cst_32
  let main_v86 : IVec S22801x51 1 := cmpf .olt main_v84 main_v85
  let main_c_33 : IVec S_ 1 := constantI S_ 1 1#1
  let main_v87 : IVec S_ 1 := (fun x v => Host.reduce IntOp.andi x v reducesTo_S22801x51_S_d0_1 h_S_) main_v86 main_c_33
  let main_v88 : IVec S_ 1 := andi main_v83 main_v87
  main_v88

def fn_part4 {F : FTy → Type} [FloatOps F] (main_arg16 : FVec F S51 .f32) (main_arg17 : FVec F S4096x51 .f32) (main_arg18 : FVec F S51 .f32) (main_arg19 : FVec F S22801x51 .f32) (main_v63 : IVec S_ 1) (main_v67 : IVec S_ 1) : IVec S_ 1 :=
  let main_v68 : IVec S_ 1 := andi main_v63 main_v67
  let main_v69 : FVec F S51 .f32 := Host.absf main_arg16
  let main_cst_26 : FVec F S_ .f32 := constant S_ .f32 0x7F800000#32
  let main_v70 : FVec F S51 .f32 := broadcastInDim S51 ![] bcast_S_S51 main_cst_26
  let main_v71 : IVec S51 1 := cmpf .olt main_v69 main_v70
  let main_c_27 : IVec S_ 1 := constantI S_ 1 1#1
  let main_v72 : IVec S_ 1 := (fun x v => Host.reduce IntOp.andi x v reducesTo_S51_S_d0 h_S_) main_v71 main_c_27
  let main_v73 : IVec S_ 1 := andi main_v68 main_v72
  let main_v74 : FVec F S4096x51 .f32 := Host.absf main_arg17
  let main_cst_28 : FVec F S_ .f32 := constant S_ .f32 0x7F800000#32
  let main_v75 : FVec F S4096x51 .f32 := broadcastInDim S4096x51 ![] bcast_S_S4096x51 main_cst_28
  let main_v76 : IVec S4096x51 1 := cmpf .olt main_v74 main_v75
  let main_c_29 : IVec S_ 1 := constantI S_ 1 1#1
  let main_v77 : IVec S_ 1 := (fun x v => Host.reduce IntOp.andi x v reducesTo_S4096x51_S_d0_1 h_S_) main_v76 main_c_29
  let main_v78 : IVec S_ 1 := andi main_v73 main_v77
  let main_v79 : FVec F S51 .f32 := Host.absf main_arg18
  let main_cst_30 : FVec F S_ .f32 := constant S_ .f32 0x7F800000#32
  let main_v80 : FVec F S51 .f32 := broadcastInDim S51 ![] bcast_S_S51 main_cst_30
  let main_v81 : IVec S51 1 := cmpf .olt main_v79 main_v80
  let main_c_31 : IVec S_ 1 := constantI S_ 1 1#1
  let main_v82 : IVec S_ 1 := (fun x v => Host.reduce IntOp.andi x v reducesTo_S51_S_d0 h_S_) main_v81 main_c_31
  let main_v83 : IVec S_ 1 := andi main_v78 main_v82
  let main_v84 : FVec F S22801x51 .f32 := Host.absf main_arg19
  let main_cst_32 : FVec F S_ .f32 := constant S_ .f32 0x7F800000#32
  fn_part5 (F := F) main_v83 main_v84 main_cst_32

def fn_part3 {F : FTy → Type} [FloatOps F] (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x51 .f32 := Host.absf main_arg13
  let main_cst_20 : FVec F S_ .f32 := constant S_ .f32 0x7F800000#32
  let main_v55 : FVec F S4096x51 .f32 := broadcastInDim S4096x51 ![] bcast_S_S4096x51 main_cst_20
  let main_v56 : IVec S4096x51 1 := cmpf .olt main_v54 main_v55
  let main_c_21 : IVec S_ 1 := constantI S_ 1 1#1
  let main_v57 : IVec S_ 1 := (fun x v => Host.reduce IntOp.andi x v reducesTo_S4096x51_S_d0_1 h_S_) main_v56 main_c_21
  let main_v58 : IVec S_ 1 := andi main_v53 main_v57
  let main_v59 : FVec F S51 .f32 := Host.absf main_arg14
  let main_cst_22 : FVec F S_ .f32 := constant S_ .f32 0x7F800000#32
  let main_v60 : FVec F S51 .f32 := broadcastInDim S51 ![] bcast_S_S51 main_cst_22
  let main_v61 : IVec S51 1 := cmpf .olt main_v59 main_v60
  let main_c_23 : IVec S_ 1 := constantI S_ 1 1#1
  let main_v62 : IVec S_ 1 := (fun x v => Host.reduce IntOp.andi x v reducesTo_S51_S_d0 h_S_) main_v61 main_c_23
  let main_v63 : IVec S_ 1 := andi main_v58 main_v62
  let main_v64 : FVec F S4096x51 .f32 := Host.absf main_arg15
  let main_cst_24 : FVec F S_ .f32 := constant S_ .f32 0x7F800000#32
  let main_v65 : FVec F S4096x51 .f32 := broadcastInDim S4096x51 ![] bcast_S_S4096x51 main_cst_24
  let main_v66 : IVec S4096x51 1 := cmpf .olt main_v64 main_v65
  let main_c_25 : IVec S_ 1 := constantI S_ 1 1#1
  let main_v67 : IVec S_ 1 := (fun x v => Host.reduce IntOp.andi x v reducesTo_S4096x51_S_d0_1 h_S_) main_v66 main_c_25
  fn_part4 (F := F) main_arg16 main_arg17 main_arg18 main_arg19 main_v63 main_v67

def fn_part2 {F : FTy → Type} [FloatOps F] (main_arg9 : FVec F S32x512 .f32) (main_arg10 : FVec F S512 .f32) (main_arg11 : FVec F S512x4096 .f32) (main_arg12 : FVec F S4096 .f32) (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) (main_v33 : IVec S_ 1) : IVec S_ 1 :=
  let main_v34 : FVec F S32x512 .f32 := Host.absf main_arg9
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x4096 .f32 := Host.absf main_arg11
  let main_cst_16 : FVec F S_ .f32 := constant S_ .f32 0x7F800000#32
  let main_v45 : FVec F S512x4096 .f32 := broadcastInDim S512x4096 ![] bcast_S_S512x4096 main_cst_16
  let main_v46 : IVec S512x4096 1 := cmpf .olt main_v44 main_v45
  let main_c_17 : IVec S_ 1 := constantI S_ 1 1#1
  let main_v47 : IVec S_ 1 := (fun x v => Host.reduce IntOp.andi x v reducesTo_S512x4096_S_d0_1 h_S_) main_v46 main_c_17
  let main_v48 : IVec S_ 1 := andi main_v43 main_v47
  let main_v49 : FVec F S4096 .f32 := Host.absf main_arg12
  let main_cst_18 : FVec F S_ .f32 := constant S_ .f32 0x7F800000#32
  let main_v50 : FVec F S4096 .f32 := broadcastInDim S4096 ![] bcast_S_S4096 main_cst_18
  fn_part3 (F := F) main_arg13 main_arg14 main_arg15 main_arg16 main_arg17 main_arg18 main_arg19 main_v48 main_v49 main_v50

def fn_part1 {F : FTy → Type} [FloatOps F] (main_arg6 : FVec F S1024 .f32) (main_arg7 : FVec F S1024x4096 .f32) (main_arg8 : FVec F S4096 .f32) (main_arg9 : FVec F S32x512 .f32) (main_arg10 : FVec F S512 .f32) (main_arg11 : FVec F S512x4096 .f32) (main_arg12 : FVec F S4096 .f32) (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg7
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S4096x512 .f32) (main_arg1 : IVec S16384x2 32) (main_arg2 : IVec S16384x2 32) (main_arg3 : FVec F S16384x32 .f32) (main_arg4 : FVec F S16384x4096 .f32) (main_arg5 : FVec F S512x1024 .f32) (main_arg6 : FVec F S1024 .f32) (main_arg7 : FVec F S1024x4096 .f32) (main_arg8 : FVec F S4096 .f32) (main_arg9 : FVec F S32x512 .f32) (main_arg10 : FVec F S512 .f32) (main_arg11 : FVec F S512x4096 .f32) (main_arg12 : FVec F S4096 .f32) (main_arg13 : FVec F S4096x51 .f32) (main_arg14 : FVec F S51 .f32) (main_arg15 : FVec F S4096x51 .f32) (main_arg16 : FVec F S51 .f32) (main_arg17 : FVec F S4096x51 .f32) (main_arg18 : FVec F S51 .f32) (main_arg19 : FVec F S22801x51 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S16384x32 .f32 := Host.absf main_arg3
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x4096 .f32 := Host.absf main_arg4
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S512x1024 .f32 := Host.absf main_arg5
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S4096x512 : Shape := ⟨2, ![4096, 512]⟩
abbrev S16384x2 : Shape := ⟨2, ![16384, 2]⟩
abbrev S16384x32 : Shape := ⟨2, ![16384, 32]⟩
abbrev S16384x4096 : Shape := ⟨2, ![16384, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S32x512 : Shape := ⟨2, ![32, 512]⟩
abbrev S512 : Shape := ⟨1, ![512]⟩
abbrev S512x4096 : Shape := ⟨2, ![512, 4096]⟩
abbrev S4096x51 : Shape := ⟨2, ![4096, 51]⟩
abbrev S51 : Shape := ⟨1, ![51]⟩
abbrev S22801x51 : Shape := ⟨2, ![22801, 51]⟩
abbrev S4096x102 : Shape := ⟨2, ![4096, 102]⟩
abbrev S102 : Shape := ⟨1, ![102]⟩
abbrev S4096x1024 : Shape := ⟨2, ![4096, 1024]⟩
abbrev S1024x512 : Shape := ⟨2, ![1024, 512]⟩
abbrev S1024x1024 : Shape := ⟨2, ![1024, 1024]⟩
abbrev S1x1024 : Shape := ⟨2, ![1, 1024]⟩
abbrev S4096x2x512 : Shape := ⟨3, ![4096, 2, 512]⟩
abbrev S4096x1x512 : Shape := ⟨3, ![4096, 1, 512]⟩
abbrev S16384x1 : Shape := ⟨2, ![16384, 1]⟩
abbrev S16384 : Shape := ⟨1, ![16384]⟩
abbrev S_ : Shape := ⟨0, ![]⟩
abbrev S16384x512 : Shape := ⟨2, ![16384, 512]⟩
abbrev S16384x1024 : Shape := ⟨2, ![16384, 1024]⟩
abbrev S16384x51 : Shape := ⟨2, ![16384, 51]⟩
abbrev S256x1024 : Shape := ⟨2, ![256, 1024]⟩
abbrev S256x32 : Shape := ⟨2, ![256, 32]⟩
abbrev S256x4096 : Shape := ⟨2, ![256, 4096]⟩
abbrev S256x51 : Shape := ⟨2, ![256, 51]⟩
abbrev S1x4096 : Shape := ⟨2, ![1, 4096]⟩
abbrev S256x512 : Shape := ⟨2, ![256, 512]⟩
abbrev S1x512 : Shape := ⟨2, ![1, 512]⟩
abbrev S256x102 : Shape := ⟨2, ![256, 102]⟩
abbrev S1x102 : Shape := ⟨2, ![1, 102]⟩
abbrev S1x51 : Shape := ⟨2, ![1, 51]⟩

abbrev nBuf : Space → Nat
  | .hbm => 75
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S16384x2, .i32⟩
  | .hbm, ⟨2, _⟩ => ⟨S16384x2, .i32⟩
  | .hbm, ⟨3, _⟩ => ⟨S16384x32, .f32⟩
  | .hbm, ⟨4, _⟩ => ⟨S16384x4096, .f32⟩
  | .hbm, ⟨5, _⟩ => ⟨S512x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S32x512, .f32⟩
  | .hbm, ⟨10, _⟩ => ⟨S512, .f32⟩
  | .hbm, ⟨11, _⟩ => ⟨S512x4096, .f32⟩
  | .hbm, ⟨12, _⟩ => ⟨S4096, .f32⟩
  | .hbm, ⟨13, _⟩ => ⟨S4096x51, .f32⟩
  | .hbm, ⟨14, _⟩ => ⟨S51, .f32⟩
  | .hbm, ⟨15, _⟩ => ⟨S4096x51, .f32⟩
  | .hbm, ⟨16, _⟩ => ⟨S51, .f32⟩
  | .hbm, ⟨17, _⟩ => ⟨S4096x51, .f32⟩
  | .hbm, ⟨18, _⟩ => ⟨S51, .f32⟩
  | .hbm, ⟨19, _⟩ => ⟨S22801x51, .f32⟩
  | .hbm, ⟨20, _⟩ => ⟨S512x1024, .bf16⟩
  | .hbm, ⟨21, _⟩ => ⟨S1024x4096, .bf16⟩
  | .hbm, ⟨22, _⟩ => ⟨S32x512, .bf16⟩
  | .hbm, ⟨23, _⟩ => ⟨S512x4096, .bf16⟩
  | .hbm, ⟨24, _⟩ => ⟨S4096x51, .bf16⟩
  | .hbm, ⟨25, _⟩ => ⟨S4096x102, .f32⟩
  | .hbm, ⟨26, _⟩ => ⟨S4096x102, .bf16⟩
  | .hbm, ⟨27, _⟩ => ⟨S102, .f32⟩
  | .hbm, ⟨28, _⟩ => ⟨S4096x1024, .bf16⟩
  | .hbm, ⟨29, _⟩ => ⟨S4096x2x512, .bf16⟩
  | .hbm, ⟨30, _⟩ => ⟨S4096x1x512, .bf16⟩
  | .hbm, ⟨31, _⟩ => ⟨S4096x512, .bf16⟩
  | .hbm, ⟨32, _⟩ => ⟨S4096x1x512, .bf16⟩
  | .hbm, ⟨33, _⟩ => ⟨S4096x512, .bf16⟩
  | .hbm, ⟨34, _⟩ => ⟨S16384x1, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384x1, .i32⟩
  | .hbm, ⟨44, _⟩ => ⟨S16384x512, .bf16⟩
  | .hbm, ⟨45, _⟩ => ⟨S16384x1, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S16384x512, .bf16⟩
  | .hbm, ⟨56, _⟩ => ⟨S16384x1024, .bf16⟩
  | .hbm, ⟨57, _⟩ => ⟨S16384x1, .i32⟩
  | .hbm, ⟨58, _⟩ => ⟨S16384, .i32⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384x1, .i32⟩
  | .hbm, ⟨73, _⟩ => ⟨S16384x51, .f32⟩
  | .hbm, ⟨74, _⟩ => ⟨S16384x51, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x32, .f32⟩
  | .local _ .vmem, ⟨9, _⟩ => ⟨S256x32, .f32⟩
  | .local _ .vmem, ⟨10, _⟩ => ⟨S256x4096, .f32⟩
  | .local _ .vmem, ⟨11, _⟩ => ⟨S256x4096, .f32⟩
  | .local _ .vmem, ⟨12, _⟩ => ⟨S256x51, .f32⟩
  | .local _ .vmem, ⟨13, _⟩ => ⟨S256x51, .f32⟩
  | .local _ .vmem, ⟨14, _⟩ => ⟨S1024x4096, .bf16⟩
  | .local _ .vmem, ⟨15, _⟩ => ⟨S4096, .f32⟩
  | .local _ .vmem, ⟨16, _⟩ => ⟨S32x512, .bf16⟩
  | .local _ .vmem, ⟨17, _⟩ => ⟨S512, .f32⟩
  | .local _ .vmem, ⟨18, _⟩ => ⟨S512x4096, .bf16⟩
  | .local _ .vmem, ⟨19, _⟩ => ⟨S4096, .f32⟩
  | .local _ .vmem, ⟨20, _⟩ => ⟨S4096x102, .bf16⟩
  | .local _ .vmem, ⟨21, _⟩ => ⟨S102, .f32⟩
  | .local _ .vmem, ⟨22, _⟩ => ⟨S4096x51, .bf16⟩
  | .local _ .vmem, ⟨23, _⟩ => ⟨S51, .f32⟩
  | .local _ .vmem, ⟨24, _⟩ => ⟨S256x51, .f32⟩
  | .local _ .vmem, ⟨25, _⟩ => ⟨S256x51, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_4 : Ref sig .tc := ⟨.hbm, 65, rfl⟩
abbrev main_v40 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem14_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x51 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x4096 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4096x102 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S102 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4096x51 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S51 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S256x51 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  bitsLt_bf16_f32 : FTy.bits .bf16 < FTy.bits .f32
  concatenates_S4096x51_S4096x51_S4096x102_d1 : Shape.Concatenates [S4096x51, S4096x51] S4096x102 1
  concatenates_S51_S51_S102_d0 : Shape.Concatenates [S51, S51] S102 0
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4096x1024_S4096x2x512 : S4096x1024.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x512_S16384x512_S16384x1024_d1 : Shape.Concatenates [S16384x512, S16384x512] S16384x1024 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S256x32_S256x32_0_0 : ∀ a, (![0, 0] : Fin 2 → Nat) a + S256x32.size a ≤ S256x32.size a
  h_S256x32 : 0 < S256x32.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x102_S4096x102_0_0 : ∀ a, (![0, 0] : Fin 2 → Nat) a + S4096x102.size a ≤ S4096x102.size a
  h_S4096x102 : 0 < S4096x102.numel
  shapeCasts_S4096x102_S4096x102 : S4096x102.ShapeCasts S4096x102
  inb_S102_S102_0 : ∀ a, (![0] : Fin 1 → Nat) a + S102.size a ≤ S102.size a
  h_S102 : 0 < S102.numel
  shapeCasts_S102_S102 : S102.ShapeCasts S102
  shapeCasts_S102_S1x102 : S102.ShapeCasts S1x102
  broadcasts_S1x102_S256x102 : S1x102.Broadcasts S256x102
  slices_S256x102_o0_0_S256x51 : S256x102.Slices ![0, 0] S256x51
  slices_S256x102_o0_51_S256x51 : S256x102.Slices ![0, 51] S256x51
  inb_S256x4096_S256x4096_0_0 : ∀ a, (![0, 0] : Fin 2 → Nat) a + S256x4096.size a ≤ S256x4096.size a
  h_S256x4096 : 0 < S256x4096.numel
  inb_S4096x51_S4096x51_0_0 : ∀ a, (![0, 0] : Fin 2 → Nat) a + S4096x51.size a ≤ S4096x51.size a
  h_S4096x51 : 0 < S4096x51.numel
  shapeCasts_S4096x51_S4096x51 : S4096x51.ShapeCasts S4096x51
  inb_S51_S51_0 : ∀ a, (![0] : Fin 1 → Nat) a + S51.size a ≤ S51.size a
  h_S51 : 0 < S51.numel
  shapeCasts_S51_S1x51 : S51.ShapeCasts S1x51
  broadcasts_S1x51_S256x51 : S1x51.Broadcasts S256x51
  inb_S256x51_S256x51_0_0 : ∀ a, (![0, 0] : Fin 2 → Nat) a + S256x51.size a ≤ S256x51.size a
  h_S256x51 : 0 < S256x51.numel
  shapeCasts_S256x51_S256x51 : S256x51.ShapeCasts S256x51
  dot_S1024x512_S512x1024_S1024x1024_1_0_0_1_n_n_wf : DotDims.WF S1024x512 S512x1024 S1024x1024 [1] [0] [0] [1] [] []
  gather_S4096x512_S16384x1_S16384x512_1_0_n_n_0_1_1512_wf : GatherDims.WF S4096x512 S16384x1 S16384x512 [1] [0] [] [0] [] 1 ![1, 512]
  gather_S22801x51_S16384x1_S16384x51_1_0_n_n_0_1_151_wf : GatherDims.WF S22801x51 S16384x1 S16384x51 [1] [0] [] [0] [] 1 ![1, 51]
  dot_S256x1024_S1024x4096_S256x4096_1_0_0_1_n_n_wf : DotDims.WF S256x1024 S1024x4096 S256x4096 [1] [0] [0] [1] [] []
  dot_S256x32_S32x512_S256x512_1_0_0_1_n_n_wf : DotDims.WF S256x32 S32x512 S256x512 [1] [0] [0] [1] [] []
  dot_S256x512_S512x4096_S256x4096_1_0_0_1_n_n_wf : DotDims.WF S256x512 S512x4096 S256x4096 [1] [0] [0] [1] [] []
  dot_S256x4096_S4096x102_S256x102_1_0_0_1_n_n_wf : DotDims.WF S256x4096 S4096x102 S256x102 [1] [0] [0] [1] [] []
  dot_S256x4096_S4096x51_S256x51_1_0_0_1_n_n_wf : DotDims.WF S256x4096 S4096x51 S256x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S16384x1024.size a
  hwx1_0 : ∀ i : grid1.Coords, EltTy.bits .bf16 = 32 ∨ (Rect.block (s := S16384x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32.size a ≤ S16384x32.size a
  hwx1_1 : ∀ i : grid1.Coords, EltTy.bits .f32 = 32 ∨ (Rect.block (s := S16384x32) S256x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S16384x4096.size a
  hwx1_2 : ∀ i : grid1.Coords, EltTy.bits .f32 = 32 ∨ (Rect.block (s := S16384x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x51.size a ≤ S16384x51.size a
  hwx1_3 : ∀ i : grid1.Coords, EltTy.bits .f32 = 32 ∨ (Rect.block (s := S16384x51) S256x51.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x512.size a ≤ S32x512.size a
  hwx1_6 : ∀ i : grid1.Coords, EltTy.bits .bf16 = 32 ∨ (Rect.block (s := S32x512) S32x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x4096.size a ≤ S512x4096.size a
  hwx1_8 : ∀ i : grid1.Coords, EltTy.bits .bf16 = 32 ∨ (Rect.block (s := S512x4096) S512x4096.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4096.size a ≤ S4096.size a
  hwx1_9 : ∀ i : grid1.Coords, EltTy.bits .f32 = 32 ∨ (Rect.block (s := S4096) S4096.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4096x102.size a ≤ S4096x102.size a
  hwx1_10 : ∀ i : grid1.Coords, EltTy.bits .bf16 = 32 ∨ (Rect.block (s := S4096x102) S4096x102.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S102.size a ≤ S102.size a
  hwx1_11 : ∀ i : grid1.Coords, EltTy.bits .f32 = 32 ∨ (Rect.block (s := S102) S102.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4096x51.size a ≤ S4096x51.size a
  hwx1_12 : ∀ i : grid1.Coords, EltTy.bits .bf16 = 32 ∨ (Rect.block (s := S4096x51) S4096x51.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S51.size a ≤ S51.size a
  hwx1_13 : ∀ i : grid1.Coords, EltTy.bits .f32 = 32 ∨ (Rect.block (s := S51) S51.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S256x51.size a ≤ S16384x51.size a
  hwx1_14 : ∀ i : grid1.Coords, EltTy.bits .f32 = 32 ∨ (Rect.block (s := S16384x51) S256x51.size (cc1_transform_14 i) (hinb1_14 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def gather_S4096x512_S16384x1_S16384x512_1_0_n_n_0_1_1512 : GatherDims S4096x512 S16384x1 S16384x512 where
  offsetDims := [1]
  collapsedSliceDims := [0]
  operandBatchingDims := []
  startIndicesBatchingDims := []
  startIndexMap := [0]
  indexVectorDim := 1
  sliceSizes := ![1, 512]
  wf := gather_S4096x512_S16384x1_S16384x512_1_0_n_n_0_1_1512_wf
def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x32_S32x512_S256x512_1_0_0_1_n_n : DotDims S256x32 S32x512 S256x512 where
  lhsContracting := [1]
  rhsContracting := [0]
  lhsNonContracting := [0]
  rhsNonContracting := [1]
  lhsBatch := []
  rhsBatch := []
  wf := dot_S256x32_S32x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x102_S256x102_1_0_0_1_n_n : DotDims S256x4096 S4096x102 S256x102 where
  lhsContracting := [1]
  rhsContracting := [0]
  lhsNonContracting := [0]
  rhsNonContracting := [1]
  lhsBatch := []
  rhsBatch := []
  wf := dot_S256x4096_S4096x102_S256x102_1_0_0_1_n_n_wf
def dot_S256x4096_S4096x51_S256x51_1_0_0_1_n_n : DotDims S256x4096 S4096x51 S256x51 where
  lhsContracting := [1]
  rhsContracting := [0]
  lhsNonContracting := [0]
  rhsNonContracting := [1]
  lhsBatch := []
  rhsBatch := []
  wf := dot_S256x4096_S4096x51_S256x51_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S256x51.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S32x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S512x4096.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S4096.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S4096x102.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v7) S102.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v4) S4096x51.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg16) S51.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v47) S256x51.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S4096x512 : Shape := ⟨2, ![4096, 512]⟩
abbrev S16384x2 : Shape := ⟨2, ![16384, 2]⟩
abbrev S16384x32 : Shape := ⟨2, ![16384, 32]⟩
abbrev S16384x4096 : Shape := ⟨2, ![16384, 4096]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S32x512 : Shape := ⟨2, ![32, 512]⟩
abbrev S512 : Shape := ⟨1, ![512]⟩
abbrev S512x4096 : Shape := ⟨2, ![512, 4096]⟩
abbrev S4096x51 : Shape := ⟨2, ![4096, 51]⟩
abbrev S51 : Shape := ⟨1, ![51]⟩
abbrev S22801x51 : Shape := ⟨2, ![22801, 51]⟩
abbrev S4096x1024 : Shape := ⟨2, ![4096, 1024]⟩
abbrev S1x1024 : Shape := ⟨2, ![1, 1024]⟩
abbrev S4096x2x512 : Shape := ⟨3, ![4096, 2, 512]⟩
abbrev S4096x1x512 : Shape := ⟨3, ![4096, 1, 512]⟩
abbrev S16384x1 : Shape := ⟨2, ![16384, 1]⟩
abbrev S16384 : Shape := ⟨1, ![16384]⟩
abbrev S_ : Shape := ⟨0, ![]⟩
abbrev S16384x512 : Shape := ⟨2, ![16384, 512]⟩
abbrev S16384x1024 : Shape := ⟨2, ![16384, 1024]⟩
abbrev S1x4096 : Shape := ⟨2, ![1, 4096]⟩
abbrev S1x512 : Shape := ⟨2, ![1, 512]⟩
abbrev S16384x51 : Shape := ⟨2, ![16384, 51]⟩
abbrev S1x51 : Shape := ⟨2, ![1, 51]⟩

abbrev nBuf : Space → Nat
  | .hbm => 114
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x2, .i32⟩
  | .hbm, ⟨2, _⟩ => ⟨S16384x2, .i32⟩
  | .hbm, ⟨3, _⟩ => ⟨S16384x32, .f32⟩
  | .hbm, ⟨4, _⟩ => ⟨S16384x4096, .f32⟩
  | .hbm, ⟨5, _⟩ => ⟨S512x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S32x512, .f32⟩
  | .hbm, ⟨10, _⟩ => ⟨S512, .f32⟩
  | .hbm, ⟨11, _⟩ => ⟨S512x4096, .f32⟩
  | .hbm, ⟨12, _⟩ => ⟨S4096, .f32⟩
  | .hbm, ⟨13, _⟩ => ⟨S4096x51, .f32⟩
  | .hbm, ⟨14, _⟩ => ⟨S51, .f32⟩
  | .hbm, ⟨15, _⟩ => ⟨S4096x51, .f32⟩
  | .hbm, ⟨16, _⟩ => ⟨S51, .f32⟩
  | .hbm, ⟨17, _⟩ => ⟨S4096x51, .f32⟩
  | .hbm, ⟨18, _⟩ => ⟨S51, .f32⟩
  | .hbm, ⟨19, _⟩ => ⟨S22801x51, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2x512, .f32⟩
  | .hbm, ⟨25, _⟩ => ⟨S4096x1x512, .f32⟩
  | .hbm, ⟨26, _⟩ => ⟨S4096x512, .f32⟩
  | .hbm, ⟨27, _⟩ => ⟨S4096x1x512, .f32⟩
  | .hbm, ⟨28, _⟩ => ⟨S4096x512, .f32⟩
  | .hbm, ⟨29, _⟩ => ⟨S16384x1, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x512, .f32⟩
  | .hbm, ⟨40, _⟩ => ⟨S16384x1, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x512, .f32⟩
  | .hbm, ⟨51, _⟩ => ⟨S16384x1024, .f32⟩
  | .hbm, ⟨52, _⟩ => ⟨S16384x4096, .f32⟩
  | .hbm, ⟨53, _⟩ => ⟨S1x4096, .f32⟩
  | .hbm, ⟨54, _⟩ => ⟨S16384x4096, .f32⟩
  | .hbm, ⟨55, _⟩ => ⟨S16384x4096, .f32⟩
  | .hbm, ⟨56, _⟩ => ⟨S_, .f32⟩
  | .hbm, ⟨57, _⟩ => ⟨S16384x4096, .f32⟩
  | .hbm, ⟨58, _⟩ => ⟨S16384x4096, .f32⟩
  | .hbm, ⟨59, _⟩ => ⟨S16384x512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S16384x4096, .f32⟩
  | .hbm, ⟨67, _⟩ => ⟨S1x4096, .f32⟩
  | .hbm, ⟨68, _⟩ => ⟨S16384x4096, .f32⟩
  | .hbm, ⟨69, _⟩ => ⟨S16384x4096, .f32⟩
  | .hbm, ⟨70, _⟩ => ⟨S_, .f32⟩
  | .hbm, ⟨71, _⟩ => ⟨S16384x4096, .f32⟩
  | .hbm, ⟨72, _⟩ => ⟨S16384x4096, .f32⟩
  | .hbm, ⟨73, _⟩ => ⟨S16384x4096, .f32⟩
  | .hbm, ⟨74, _⟩ => ⟨S16384x51, .f32⟩
  | .hbm, ⟨75, _⟩ => ⟨S1x51, .f32⟩
  | .hbm, ⟨76, _⟩ => ⟨S16384x51, .f32⟩
  | .hbm, ⟨77, _⟩ => ⟨S16384x51, .f32⟩
  | .hbm, ⟨78, _⟩ => ⟨S16384x51, .f32⟩
  | .hbm, ⟨79, _⟩ => ⟨S1x51, .f32⟩
  | .hbm, ⟨80, _⟩ => ⟨S16384x51, .f32⟩
  | .hbm, ⟨81, _⟩ => ⟨S16384x51, .f32⟩
  | .hbm, ⟨82, _⟩ => ⟨S16384x1, .i32⟩
  | .hbm, ⟨83, _⟩ => ⟨S16384, .i32⟩
  | .hbm, ⟨84, _⟩ => ⟨S_, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384, .i32⟩
  | .hbm, ⟨89, _⟩ => ⟨S16384, .i32⟩
  | .hbm, ⟨90, _⟩ => ⟨S_, .i32⟩
  | .hbm, ⟨91, _⟩ => ⟨S16384, .i32⟩
  | .hbm, ⟨92, _⟩ => ⟨S16384, .i1⟩
  | .hbm, ⟨93, _⟩ => ⟨S_, .i32⟩
  | .hbm, ⟨94, _⟩ => ⟨S16384, .i32⟩
  | .hbm, ⟨95, _⟩ => ⟨S16384, .i32⟩
  | .hbm, ⟨96, _⟩ => ⟨S16384, .i32⟩
  | .hbm, ⟨97, _⟩ => ⟨S16384x1, .i32⟩
  | .hbm, ⟨98, _⟩ => ⟨S16384x51, .f32⟩
  | .hbm, ⟨99, _⟩ => ⟨S16384x51, .f32⟩
  | .hbm, ⟨100, _⟩ => ⟨S1x51, .f32⟩
  | .hbm, ⟨101, _⟩ => ⟨S16384x51, .f32⟩
  | .hbm, ⟨102, _⟩ => ⟨S16384x51, .f32⟩
  | .hbm, ⟨103, _⟩ => ⟨S16384x51, .f32⟩
  | .hbm, ⟨104, _⟩ => ⟨S16384x51, .f32⟩
  | .hbm, ⟨105, _⟩ => ⟨S16384x51, .f32⟩
  | .hbm, ⟨106, _⟩ => ⟨S16384x51, .f32⟩
  | .hbm, ⟨107, _⟩ => ⟨S_, .f32⟩
  | .hbm, ⟨108, _⟩ => ⟨S16384x51, .f32⟩
  | .hbm, ⟨109, _⟩ => ⟨S16384x51, .f32⟩
  | .hbm, ⟨110, _⟩ => ⟨S_, .f32⟩
  | .hbm, ⟨111, _⟩ => ⟨S16384x51, .f32⟩
  | .hbm, ⟨112, _⟩ => ⟨S16384x51, .f32⟩
  | .hbm, ⟨113, _⟩ => ⟨S16384x51, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call0_cst : Ref sig .tc := ⟨.hbm, 56, rfl⟩
abbrev main_call0_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_cst : Ref sig .tc := ⟨.hbm, 70, rfl⟩
abbrev main_call2_v0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_3 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_4 : Ref sig .tc := ⟨.hbm, 90, rfl⟩
abbrev main_v59 : Ref sig .tc := ⟨.hbm, 91, rfl⟩
abbrev main_v60 : Ref sig .tc := ⟨.hbm, 92, rfl⟩
abbrev main_c_5 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst : Ref sig .tc := ⟨.hbm, 107, rfl⟩
abbrev main_v74 : Ref sig .tc := ⟨.hbm, 108, rfl⟩
abbrev main_v75 : Ref sig .tc := ⟨.hbm, 109, rfl⟩
abbrev main_cst_6 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4096x2x512 : S4096x1024.ShapeCasts S4096x2x512
  slices_S4096x2x512_S4096x1x512_0_0_0 : S4096x2x512.Slices ![0, 0, 0] S4096x1x512
  shapeCasts_S4096x1x512_S4096x512 : S4096x1x512.ShapeCasts S4096x512
  slices_S4096x2x512_S4096x1x512_0_1_0 : S4096x2x512.Slices ![0, 1, 0] S4096x1x512
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x512_S16384x512_S16384x1024_d1 : Shape.Concatenates [S16384x512, S16384x512] S16384x1024 1
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S51_S1x51_1 : S51.BroadcastsInDim S1x51 (![1] : Fin 1 → Fin S1x51.rank)
  bcast_S1x51_S16384x51_0_1 : S1x51.BroadcastsInDim S16384x51 (![0, 1] : Fin 2 → Fin S16384x51.rank)
  bcast_S_S16384x51 : S_.BroadcastsInDim S16384x51 (![] : Fin 0 → Fin S16384x51.rank)
  dot_S4096x512_S512x1024_S4096x1024_1_0_0_1_n_n_wf : DotDims.WF S4096x512 S512x1024 S4096x1024 [1] [0] [0] [1] [] []
  gather_S4096x512_S16384x1_S16384x512_1_0_n_n_0_1_1512_wf : GatherDims.WF S4096x512 S16384x1 S16384x512 [1] [0] [] [0] [] 1 ![1, 512]
  dot_S16384x1024_S1024x4096_S16384x4096_1_0_0_1_n_n_wf : DotDims.WF S16384x1024 S1024x4096 S16384x4096 [1] [0] [0] [1] [] []
  dot_S16384x32_S32x512_S16384x512_1_0_0_1_n_n_wf : DotDims.WF S16384x32 S32x512 S16384x512 [1] [0] [0] [1] [] []
  dot_S16384x512_S512x4096_S16384x4096_1_0_0_1_n_n_wf : DotDims.WF S16384x512 S512x4096 S16384x4096 [1] [0] [0] [1] [] []
  dot_S16384x4096_S4096x51_S16384x51_1_0_0_1_n_n_wf : DotDims.WF S16384x4096 S4096x51 S16384x51 [1] [0] [0] [1] [] []
  gather_S22801x51_S16384x1_S16384x51_1_0_n_n_0_1_151_wf : GatherDims.WF S22801x51 S16384x1 S16384x51 [1] [0] [] [0] [] 1 ![1, 51]

variable [Facts₀]

def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def gather_S4096x512_S16384x1_S16384x512_1_0_n_n_0_1_1512 : GatherDims S4096x512 S16384x1 S16384x512 where
  offsetDims := [1]
  collapsedSliceDims := [0]
  operandBatchingDims := []
  startIndicesBatchingDims := []
  startIndexMap := [0]
  indexVectorDim := 1
  sliceSizes := ![1, 512]
  wf := gather_S4096x512_S16384x1_S16384x512_1_0_n_n_0_1_1512_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x32_S32x512_S16384x512_1_0_0_1_n_n : DotDims S16384x32 S32x512 S16384x512 where
  lhsContracting := [1]
  rhsContracting := [0]
  lhsNonContracting := [0]
  rhsNonContracting := [1]
  lhsBatch := []
  rhsBatch := []
  wf := dot_S16384x32_S32x512_S16384x512_1_0_0_1_n_n_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x51_S16384x51_1_0_0_1_n_n : DotDims S16384x4096 S4096x51 S16384x51 where
  lhsContracting := [1]
  rhsContracting := [0]
  lhsNonContracting := [0]
  rhsNonContracting := [1]
  lhsBatch := []
  rhsBatch := []
  wf := dot_S16384x4096_S4096x51_S16384x51_1_0_0_1_n_n_wf
def gather_S22801x51_S16384x1_S16384x51_1_0_n_n_0_1_151 : GatherDims S22801x51 S16384x1 S16384x51 where
  offsetDims := [1]
  collapsedSliceDims := [0]
  operandBatchingDims := []
  startIndicesBatchingDims := []
  startIndexMap := [0]
  indexVectorDim := 1
  sliceSizes := ![1, 51]
  wf := gather_S22801x51_S16384x1_S16384x51_1_0_n_n_0_1_151_wf

class Facts : Prop extends Facts₀ where

variable [Facts]
-- ==== Proof.NamedRun.lean ====
/-
  The kernel program's run with its RESULT array named.

  The program is two pipelined kernel regions among stretches of host operations. Its buffer contents at the four
  segment boundaries are a fold from the launch memory: after the first host stretch, after the first region (its
  output array at what the region's write-backs leave, everything else as entered), after the second host stretch,
  after the second region. Every weakly fair execution terminates without a fault in a state whose unscoped buffers
  hold the last boundary's contents; read at the result's buffer that is the second region's output array after its
  last write-back, and read at an argument it is the launch contents, since nothing writes an argument.
-/
import proofs.«143274_j39986145525795_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and every argument array as launched. -/
theorem run : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

/-- The last boundary's contents at the result buffer: the second region's output array after its last write-back. -/
theorem result_eq (c : Dev nD) :
    W4 m ρ c (Proc.devRef .tc main_v47) = (dat1 (V3 m ρ) c).arrAt 14 cfg1.N := W4_arr m ρ c 14

end Cert.KernelIdeal.NamedRun

end
-- ==== Proof.RelSpec.lean ====
/-
  The mathematics both programs compute, written once over extended reals and literal extents.

  For each of the object pairs (16384 of them; the definitions take the number of rows as a parameter, since the
  kernel works on blocks of 256 rows) `r` and each of 51 relation classes `j`:
    * every object's context vector is projected, `emb o n = Σ_k x0[o,k]·x5[k,n] + x6[n]` (4096 objects, 1024 columns);
    * a pair's context row `ctx[r, ·]` (1024 wide) is assembled from two projected objects chosen by the pair's
      two integer indices — that assembly is the same chain of layout operations and gathers in both programs and is
      carried here as an abstract array `ctx`, as is the frequency bias `frq` gathered from a table;
    * `pairFeat r k = relu(Σ_l ctx[r,l]·x7[l,k] + x8[k]) · relu(Σ_h relu(Σ_b x3[r,b]·x9[b,h] + x10[h])·x11[h,k] + x12[k])`;
    * `logit r j = (Σ_k pairFeat r k·x13[k,j] + x14[j]) · σ((Σ_k x4[r,k]·x15[k,j] + x16[j]) + frq[r,j]
                                                        + (Σ_k pairFeat r k·x17[k,j] + x18[j]))`
  with `σ` the logistic function of the extended reals and `relu a = max a 0`, the zero kept as the float word both
  programs print. Sums are finite sums of extended reals; only commutativity of a finite sum is ever used, so nothing
  here needs the inputs to be finite.
-/
import Idealize.ShloMosaic.PureOps.Ideal
import Idealize.ShloMosaic.Lib.ValueIdx

noncomputable section

open scoped BigOperators

namespace Cert.RelSpec

open Idealize.ShloMosaic Idealize.ShloMosaic.ValueIdx

/-- A matrix of extended reals with literal extents, indexed as the programs' arrays are. -/
abbrev Mat (n0 n1 : Nat) : Type := (⟨2, ![n0, n1]⟩ : Shape).Idx → EReal
/-- A vector of extended reals with a literal extent. -/
abbrev Row (n : Nat) : Type := (⟨1, ![n]⟩ : Shape).Idx → EReal

/-- The float word of zero, as both programs print it; never evaluated. -/
abbrev zeroWord : EReal := Ideal.ofBits .f32 0x00000000#32

/-- `max a 0`. -/
def relu (a : EReal) : EReal := max a zeroWord

/-- One entry of an affine map: `Σ_k x[r,k]·W[k,j] + b[j]`. -/
def affine {M K N : Nat} (x : Mat M K) (W : Mat K N) (b : Row N) (r : Fin M) (j : Fin N) : EReal :=
  ∑ k : Fin K, x (ix2 r k) * W (ix2 k j) + b (ix1 j)

/-- The projected object contexts, as one array: entry `(o, n)` is `Σ_k x0[o,k]·x5[k,n] + x6[n]`. -/
def emb (x0 : Mat 4096 512) (x5 : Mat 512 1024) (x6 : Row 1024) : Mat 4096 1024 :=
  fun i => affine x0 x5 x6 (i 0) (i 1)

/-- The hidden spatial feature `h` of pair `r`: `relu(Σ_b x3[r,b]·x9[b,h] + x10[h])`. -/
def spatial {M : Nat} (x3 : Mat M 32) (x9 : Mat 32 512) (x10 : Row 512) (r : Fin M) (h : Fin 512) : EReal :=
  relu (affine x3 x9 x10 r h)

/-- Pair `r`'s feature `k`: the rectified context projection times the rectified spatial gate. -/
def pairFeat {M : Nat} (ctx : Mat M 1024) (x3 : Mat M 32) (x7 : Mat 1024 4096) (x8 : Row 4096) (x9 : Mat 32 512)
    (x10 : Row 512) (x11 : Mat 512 4096) (x12 : Row 4096) (r : Fin M) (k : Fin 4096) : EReal :=
  relu (affine ctx x7 x8 r k) *
    relu (∑ h : Fin 512, spatial x3 x9 x10 r h * x11 (ix2 h k) + x12 (ix1 k))

/-- The result at pair `r`, class `j`: the context logit gated by the logistic of visual + frequency + gate logits. -/
def logit {M : Nat} (ctx : Mat M 1024) (frq : Mat M 51) (x3 : Mat M 32) (x4 : Mat M 4096)
    (x7 : Mat 1024 4096) (x8 : Row 4096) (x9 : Mat 32 512) (x10 : Row 512) (x11 : Mat 512 4096) (x12 : Row 4096)
    (x13 : Mat 4096 51) (x14 : Row 51) (x15 : Mat 4096 51) (x16 : Row 51) (x17 : Mat 4096 51) (x18 : Row 51)
    (r : Fin M) (j : Fin 51) : EReal :=
  (∑ k : Fin 4096, pairFeat ctx x3 x7 x8 x9 x10 x11 x12 r k * x13 (ix2 k j) + x14 (ix1 j)) *
    Ideal.logistic ((affine x4 x15 x16 r j + frq (ix2 r j)) +
      (∑ k : Fin 4096, pairFeat ctx x3 x7 x8 x9 x10 x11 x12 r k * x17 (ix2 k j) + x18 (ix1 j)))

/-- The result at a row depends only on that row of each row-indexed array: two families of arrays (of possibly
    different heights) that agree on row `r` of the one and row `r'` of the other give the same result there. This is
    what lets a block of rows be computed by itself. -/
theorem logit_row_congr {M M' : Nat} (ctx : Mat M 1024) (frq : Mat M 51) (x3 : Mat M 32) (x4 : Mat M 4096)
    (ctx' : Mat M' 1024) (frq' : Mat M' 51) (x3' : Mat M' 32) (x4' : Mat M' 4096)
    (x7 : Mat 1024 4096) (x8 : Row 4096) (x9 : Mat 32 512) (x10 : Row 512) (x11 : Mat 512 4096) (x12 : Row 4096)
    (x13 : Mat 4096 51) (x14 : Row 51) (x15 : Mat 4096 51) (x16 : Row 51) (x17 : Mat 4096 51) (x18 : Row 51)
    (r : Fin M) (r' : Fin M') (j : Fin 51)
    (hctx : ∀ l : Fin 1024, ctx (ix2 r l) = ctx' (ix2 r' l)) (hfrq : frq (ix2 r j) = frq' (ix2 r' j))
    (h3 : ∀ b : Fin 32, x3 (ix2 r b) = x3' (ix2 r' b)) (h4 : ∀ k : Fin 4096, x4 (ix2 r k) = x4' (ix2 r' k)) :
    logit ctx frq x3 x4 x7 x8 x9 x10 x11 x12 x13 x14 x15 x16 x17 x18 r j
      = logit ctx' frq' x3' x4' x7 x8 x9 x10 x11 x12 x13 x14 x15 x16 x17 x18 r' j := by
  simp only [logit, pairFeat, spatial, affine, hctx, hfrq, h3, h4]

end Cert.RelSpec

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.PairBlock.lean ====
/-
  What one grid point of the second kernel computes, entry by entry.

  The body loads a block of 256 pair rows of each row-indexed operand and every weight whole, and stores one
  256×51 block. Written as a pure function of the loaded values, entry (p, q) of the stored block is

      (Σ_k f[p,k]·Wcg[k,q] + bcg[q]) · σ((Σ_k u[p,k]·Wv[k,q] + bv[q]) + frq[p,q] + (Σ_k f[p,k]·Wcg[k,51+q] + bcg[51+q]))

  with f[p,k] = relu(Σ_l ctx[p,l]·Wp[l,k] + bp[k]) · relu(Σ_h relu(Σ_b box[p,b]·W1[b,h] + b1[h])·W2[h,k] + b2[k]):
  five matrix products into zero accumulators (each a finite sum over the contracted axis), biases added as rows
  broadcast down the block, rectifications against the zero splat, and the two halves of the 102-column product read
  by column slices at offsets 0 and 51. Changes of float format are the identity on extended reals. When the
  102-column weight and bias are two 51-column arrays side by side, this is the specification's `logit` on 256 rows.
-/
import proofs.«143274_j39986145525795_2_alg».proof.Proof.Gen.KernelIdeal.Skeleton
import proofs.«143274_j39986145525795_2_alg».proof.Proof.RelSpec
import proofs.«143274_j39986145525795_2_alg».proof.Proof.LibMatmulIdx
import proofs.«143274_j39986145525795_2_alg».proof.Proof.LibRowOps
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.PairBlock

open Cert.KernelIdeal Cert.KernelIdeal.Gen Idealize.ShloMosaic Idealize.ShloMosaic.ValueIdx

/-- The product into a zero accumulator over the contraction record of the 256×1024 by 1024×4096 product, at entry (p, q). -/
theorem mm_ctx (l : FVec Ideal S256x1024 .bf16) (r : FVec Ideal S1024x4096 .bf16) (p : Fin 256) (q : Fin 4096) :
    matmul dot_S256x1024_S1024x4096_S256x4096_1_0_0_1_n_n none l r (constant S256x4096 .f32 0x00000000#32) (ix2 p q)
      = ∑ k : Fin 1024, l (ix2 p k) * r (ix2 k q) :=
  LibMatmulIdx.matmul2_apply dot_S256x1024_S1024x4096_S256x4096_1_0_0_1_n_n rfl rfl
    (fun j k => by unfold DotDims.lhsIdx; rw [dif_neg (by decide), dif_pos (by decide)]; rfl)
    (fun j k => DotDims.lhsIdx_val_of_single _ rfl j k)
    (fun j k => DotDims.rhsIdx_val_of_single _ rfl j k)
    (fun j k => by unfold DotDims.rhsIdx; rw [dif_neg (by decide), dif_pos (by decide)]; rfl)
    none l r (ix2 p q)

/-- The product into a zero accumulator over the contraction record of the 256×32 by 32×512 product, at entry (p, q). -/
theorem mm_box (l : FVec Ideal S256x32 .bf16) (r : FVec Ideal S32x512 .bf16) (p : Fin 256) (q : Fin 512) :
    matmul dot_S256x32_S32x512_S256x512_1_0_0_1_n_n none l r (constant S256x512 .f32 0x00000000#32) (ix2 p q)
      = ∑ k : Fin 32, l (ix2 p k) * r (ix2 k q) :=
  LibMatmulIdx.matmul2_apply dot_S256x32_S32x512_S256x512_1_0_0_1_n_n rfl rfl
    (fun j k => by unfold DotDims.lhsIdx; rw [dif_neg (by decide), dif_pos (by decide)]; rfl)
    (fun j k => DotDims.lhsIdx_val_of_single _ rfl j k)
    (fun j k => DotDims.rhsIdx_val_of_single _ rfl j k)
    (fun j k => by unfold DotDims.rhsIdx; rw [dif_neg (by decide), dif_pos (by decide)]; rfl)
    none l r (ix2 p q)

/-- The product into a zero accumulator over the contraction record of the 256×512 by 512×4096 product, at entry (p, q). -/
theorem mm_spt (l : FVec Ideal S256x512 .bf16) (r : FVec Ideal S512x4096 .bf16) (p : Fin 256) (q : Fin 4096) :
    matmul dot_S256x512_S512x4096_S256x4096_1_0_0_1_n_n none l r (constant S256x4096 .f32 0x00000000#32) (ix2 p q)
      = ∑ k : Fin 512, l (ix2 p k) * r (ix2 k q) :=
  LibMatmulIdx.matmul2_apply dot_S256x512_S512x4096_S256x4096_1_0_0_1_n_n rfl rfl
    (fun j k => by unfold DotDims.lhsIdx; rw [dif_neg (by decide), dif_pos (by decide)]; rfl)
    (fun j k => DotDims.lhsIdx_val_of_single _ rfl j k)
    (fun j k => DotDims.rhsIdx_val_of_single _ rfl j k)
    (fun j k => by unfold DotDims.rhsIdx; rw [dif_neg (by decide), dif_pos (by decide)]; rfl)
    none l r (ix2 p q)

/-- The product into a zero accumulator over the contraction record of the 256×4096 by 4096×102 product, at entry (p, q). -/
theorem mm_cg (l : FVec Ideal S256x4096 .bf16) (r : FVec Ideal S4096x102 .bf16) (p : Fin 256) (q : Fin 102) :
    matmul dot_S256x4096_S4096x102_S256x102_1_0_0_1_n_n none l r (constant S256x102 .f32 0x00000000#32) (ix2 p q)
      = ∑ k : Fin 4096, l (ix2 p k) * r (ix2 k q) :=
  LibMatmulIdx.matmul2_apply dot_S256x4096_S4096x102_S256x102_1_0_0_1_n_n rfl rfl
    (fun j k => by unfold DotDims.lhsIdx; rw [dif_neg (by decide), dif_pos (by decide)]; rfl)
    (fun j k => DotDims.lhsIdx_val_of_single _ rfl j k)
    (fun j k => DotDims.rhsIdx_val_of_single _ rfl j k)
    (fun j k => by unfold DotDims.rhsIdx; rw [dif_neg (by decide), dif_pos (by decide)]; rfl)
    none l r (ix2 p q)

/-- The product into a zero accumulator over the contraction record of the 256×4096 by 4096×51 product, at entry (p, q). -/
theorem mm_vis (l : FVec Ideal S256x4096 .bf16) (r : FVec Ideal S4096x51 .bf16) (p : Fin 256) (q : Fin 51) :
    matmul dot_S256x4096_S4096x51_S256x51_1_0_0_1_n_n none l r (constant S256x51 .f32 0x00000000#32) (ix2 p q)
      = ∑ k : Fin 4096, l (ix2 p k) * r (ix2 k q) :=
  LibMatmulIdx.matmul2_apply dot_S256x4096_S4096x51_S256x51_1_0_0_1_n_n rfl rfl
    (fun j k => by unfold DotDims.lhsIdx; rw [dif_neg (by decide), dif_pos (by decide)]; rfl)
    (fun j k => DotDims.lhsIdx_val_of_single _ rfl j k)
    (fun j k => DotDims.rhsIdx_val_of_single _ rfl j k)
    (fun j k => by unfold DotDims.rhsIdx; rw [dif_neg (by decide), dif_pos (by decide)]; rfl)
    none l r (ix2 p q)

/-- The left 51 columns of a 256×102 block, at (p, q): column q. -/
theorem slice_left {α : Type} (x : S256x102.Idx → α) (p : Fin 256) (q : Fin 51) :
    extractStridedSlice S256x51 ![0, 0] x slices_S256x102_o0_0_S256x51 (ix2 p q)
      = x (ix2 p (⟨q.val, by have := q.isLt; omega⟩ : Fin 102)) := by
  refine extractStridedSlice_apply _ x _ _ _ fun a => ?_
  match a with
  | ⟨0, _⟩ => show p.val = 0 + p.val; omega
  | ⟨1, _⟩ => show q.val = 0 + q.val; omega

/-- The right 51 columns of a 256×102 block, at (p, q): column 51 + q. -/
theorem slice_right {α : Type} (x : S256x102.Idx → α) (p : Fin 256) (q : Fin 51) :
    extractStridedSlice S256x51 ![0, 51] x slices_S256x102_o0_51_S256x51 (ix2 p q)
      = x (ix2 p (⟨51 + q.val, by have := q.isLt; omega⟩ : Fin 102)) := by
  refine extractStridedSlice_apply _ x _ _ _ fun a => ?_
  match a with
  | ⟨0, _⟩ => show p.val = 0 + p.val; omega
  | ⟨1, _⟩ => show 51 + q.val = 51 + q.val; rfl

/-- The pair features the body forms before its last two products, at (p, k): the specification's `pairFeat`. -/
theorem feature_apply (v0 : Vec Ideal S256x1024 .bf16) (v2 : Vec Ideal S1024x4096 .bf16) (v5 : Vec Ideal S4096 .f32)
    (v11 : Vec Ideal S256x32 .f32) (v13 : Vec Ideal S32x512 .bf16) (v16 : Vec Ideal S512 .f32)
    (v23 : Vec Ideal S512x4096 .bf16) (v26 : Vec Ideal S4096 .f32) (v34 : Vec Ideal S4096x102 .bf16)
    (p : Fin 256) (c : Fin 102) :
    k1_pay2 v0 v2 v5 v11 v13 v16 v23 v26 v34 (ix2 p c)
      = ∑ k : Fin 4096, Cert.RelSpec.pairFeat (M := 256) v0 v11 v2 v5 v13 v16 v23 v26 p k * v34 (ix2 k c) := by
  unfold k1_pay2
  simp only [shapeCast_self]
  rw [mm_cg]
  refine Finset.sum_congr rfl fun k _ => ?_
  simp only [truncf_apply, mulf_apply, maximumf_apply, addf_apply, broadcast_apply, mm_ctx, mm_box, mm_spt,
    LibRowOps.broadcastTo_row_apply, LibRowOps.shapeCast_row_apply]
  rfl

/-- Entry (p, q) of the block one grid point stores, as the specification's `logit` of the loaded values, when the
    102-column weight and bias are the 51-column arrays `w13 | w17` and `b14 | b18` side by side. -/
theorem payload_apply (v0 : Vec Ideal S256x1024 .bf16) (v2 : Vec Ideal S1024x4096 .bf16) (v5 : Vec Ideal S4096 .f32)
    (v11 : Vec Ideal S256x32 .f32) (v13 : Vec Ideal S32x512 .bf16) (v16 : Vec Ideal S512 .f32)
    (v23 : Vec Ideal S512x4096 .bf16) (v26 : Vec Ideal S4096 .f32) (v34 : Vec Ideal S4096x102 .bf16)
    (v37 : Vec Ideal S102 .f32) (v44 : Vec Ideal S256x4096 .f32) (v46 : Vec Ideal S4096x51 .bf16)
    (v49 : Vec Ideal S51 .f32) (v53 : Vec Ideal S256x51 .f32)
    (w13 w17 : Cert.RelSpec.Mat 4096 51) (b14 b18 : Cert.RelSpec.Row 51)
    (hw13 : ∀ (k : Fin 4096) (q : Fin 51), v34 (ix2 k (⟨q.val, by have := q.isLt; omega⟩ : Fin 102)) = w13 (ix2 k q))
    (hw17 : ∀ (k : Fin 4096) (q : Fin 51), v34 (ix2 k (⟨51 + q.val, by have := q.isLt; omega⟩ : Fin 102)) = w17 (ix2 k q))
    (hb14 : ∀ q : Fin 51, v37 (ix1 (⟨q.val, by have := q.isLt; omega⟩ : Fin 102)) = b14 (ix1 q))
    (hb18 : ∀ q : Fin 51, v37 (ix1 (⟨51 + q.val, by have := q.isLt; omega⟩ : Fin 102)) = b18 (ix1 q))
    (p : Fin 256) (q : Fin 51) :
    k1_pay1 (k1_pay2 v0 v2 v5 v11 v13 v16 v23 v26 v34) v37 v44 v46 v49 v53 (ix2 p q)
      = Cert.RelSpec.logit (M := 256) v0 v53 v11 v44 v2 v5 v13 v16 v23 v26 w13 b14 v46 v49 w17 b18 p q := by
  unfold k1_pay1
  simp only [shapeCast_self, mulf_apply, logistic, addf_apply, truncf_apply, slice_left, slice_right, mm_vis,
    LibRowOps.broadcastTo_row_apply, LibRowOps.shapeCast_row_apply, feature_apply, hw13, hw17, hb14, hb18]
  rfl

end Cert.KernelIdeal.PairBlock

end
-- ==== Proof.PairArray.lean ====
/-
  The array the second kernel leaves, as one function of the arrays it finds.

  The grid has 64 points; at point t the four row-indexed operands and the output are staged in blocks of 256 rows,
  rows 256·t … 256·t + 255, and the ten weights and biases whole. So what point t writes back is rows 256·t … of
  the specification's `logit` of the arrays as the region finds them — a row of `logit` depends only on that row of
  each row-indexed array —, the 64 blocks tile the 16384 rows (row r lies in block r / 256), and the array ends
  holding `logit` everywhere. The 102-column weight and bias enter through their two 51-column halves.
-/
import proofs.«143274_j39986145525795_2_alg».proof.Proof.Gen.KernelIdeal.Frame
import proofs.«143274_j39986145525795_2_alg».proof.Proof.PairBlock
import Idealize.ShloMosaic.Lib.Pipeline.Value
import Idealize.ShloMosaic.Lib.ValueIdx

set_option maxRecDepth 16384

noncomputable section

namespace Cert.KernelIdeal.PairArray

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps of the row-blocked windows, decided over the grid: block row t, block column 0. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_14.index t (0 : Fin 2) = t.val ∧ win1_14.index t (1 : Fin 2) = 0 :=
  (by decide +kernel : ∀ t : Fin grid1.N, _)

/-- The printed index maps of the two-axis windows staged whole: block (0, 0) at every point. -/
theorem idx_whole2 : ∀ t : Fin cfg1.N,
    win1_4.index t (0 : Fin 2) = 0 ∧ win1_4.index t (1 : Fin 2) = 0
    ∧ win1_6.index t (0 : Fin 2) = 0 ∧ win1_6.index t (1 : Fin 2) = 0
    ∧ win1_8.index t (0 : Fin 2) = 0 ∧ win1_8.index t (1 : Fin 2) = 0
    ∧ win1_10.index t (0 : Fin 2) = 0 ∧ win1_10.index t (1 : Fin 2) = 0
    ∧ win1_12.index t (0 : Fin 2) = 0 ∧ win1_12.index t (1 : Fin 2) = 0 :=
  (by decide +kernel : ∀ t : Fin grid1.N, _)

/-- The printed index maps of the one-axis windows staged whole: block 0 at every point. -/
theorem idx_whole1 : ∀ t : Fin cfg1.N,
    win1_5.index t (0 : Fin 1) = 0 ∧ win1_7.index t (0 : Fin 1) = 0 ∧ win1_9.index t (0 : Fin 1) = 0 ∧ win1_11.index t (0 : Fin 1) = 0 ∧ win1_13.index t (0 : Fin 1) = 0 :=
  (by decide +kernel : ∀ t : Fin grid1.N, _)

/-- Window 4 stages its whole array: its block at any point is the array as the region finds it. -/
theorem blk4 (c : Dev nD) (t : Fin cfg1.N) : (iblk1 V c 4 t : S1024x4096.Idx → EReal) = V c main_v1 := by
  funext y
  show V c main_v1 (((cfg1.win 4).blk t).view.emb y) = V c main_v1 y
  refine congrArg _ (funext fun a => Fin.ext ?_)
  have e := idx_whole2 t
  match a with
  | ⟨0, _⟩ => show win1_4.index t (0 : Fin 2) * 1024 + 1 * (y 0).val = (y 0).val; rw [e.1]; omega
  | ⟨1, _⟩ => show win1_4.index t (1 : Fin 2) * 4096 + 1 * (y 1).val = (y 1).val; rw [e.2.1]; omega

/-- Window 6 stages its whole array: its block at any point is the array as the region finds it. -/
theorem blk6 (c : Dev nD) (t : Fin cfg1.N) : (iblk1 V c 6 t : S32x512.Idx → EReal) = V c main_v2 := by
  funext y
  show V c main_v2 (((cfg1.win 6).blk t).view.emb y) = V c main_v2 y
  refine congrArg _ (funext fun a => Fin.ext ?_)
  have e := idx_whole2 t
  match a with
  | ⟨0, _⟩ => show win1_6.index t (0 : Fin 2) * 32 + 1 * (y 0).val = (y 0).val; rw [e.2.2.1]; omega
  | ⟨1, _⟩ => show win1_6.index t (1 : Fin 2) * 512 + 1 * (y 1).val = (y 1).val; rw [e.2.2.2.1]; omega

/-- Window 8 stages its whole array: its block at any point is the array as the region finds it. -/
theorem blk8 (c : Dev nD) (t : Fin cfg1.N) : (iblk1 V c 8 t : S512x4096.Idx → EReal) = V c main_v3 := by
  funext y
  show V c main_v3 (((cfg1.win 8).blk t).view.emb y) = V c main_v3 y
  refine congrArg _ (funext fun a => Fin.ext ?_)
  have e := idx_whole2 t
  match a with
  | ⟨0, _⟩ => show win1_8.index t (0 : Fin 2) * 512 + 1 * (y 0).val = (y 0).val; rw [e.2.2.2.2.1]; omega
  | ⟨1, _⟩ => show win1_8.index t (1 : Fin 2) * 4096 + 1 * (y 1).val = (y 1).val; rw [e.2.2.2.2.2.1]; omega

/-- Window 10 stages its whole array: its block at any point is the array as the region finds it. -/
theorem blk10 (c : Dev nD) (t : Fin cfg1.N) : (iblk1 V c 10 t : S4096x102.Idx → EReal) = V c main_v6 := by
  funext y
  show V c main_v6 (((cfg1.win 10).blk t).view.emb y) = V c main_v6 y
  refine congrArg _ (funext fun a => Fin.ext ?_)
  have e := idx_whole2 t
  match a with
  | ⟨0, _⟩ => show win1_10.index t (0 : Fin 2) * 4096 + 1 * (y 0).val = (y 0).val; rw [e.2.2.2.2.2.2.1]; omega
  | ⟨1, _⟩ => show win1_10.index t (1 : Fin 2) * 102 + 1 * (y 1).val = (y 1).val; rw [e.2.2.2.2.2.2.2.1]; omega

/-- Window 12 stages its whole array: its block at any point is the array as the region finds it. -/
theorem blk12 (c : Dev nD) (t : Fin cfg1.N) : (iblk1 V c 12 t : S4096x51.Idx → EReal) = V c main_v4 := by
  funext y
  show V c main_v4 (((cfg1.win 12).blk t).view.emb y) = V c main_v4 y
  refine congrArg _ (funext fun a => Fin.ext ?_)
  have e := idx_whole2 t
  match a with
  | ⟨0, _⟩ => show win1_12.index t (0 : Fin 2) * 4096 + 1 * (y 0).val = (y 0).val; rw [e.2.2.2.2.2.2.2.2.1]; omega
  | ⟨1, _⟩ => show win1_12.index t (1 : Fin 2) * 51 + 1 * (y 1).val = (y 1).val; rw [e.2.2.2.2.2.2.2.2.2]; omega

/-- Window 5 stages its whole array: its block at any point is the array as the region finds it. -/
theorem blk5 (c : Dev nD) (t : Fin cfg1.N) : (iblk1 V c 5 t : S4096.Idx → EReal) = V c main_arg8 := by
  funext y
  show V c main_arg8 (((cfg1.win 5).blk t).view.emb y) = V c main_arg8 y
  refine congrArg _ (funext fun a => Fin.ext ?_)
  have e := idx_whole1 t
  match a with
  | ⟨0, _⟩ => show win1_5.index t (0 : Fin 1) * 4096 + 1 * (y 0).val = (y 0).val; rw [e.1]; omega

/-- Window 7 stages its whole array: its block at any point is the array as the region finds it. -/
theorem blk7 (c : Dev nD) (t : Fin cfg1.N) : (iblk1 V c 7 t : S512.Idx → EReal) = V c main_arg10 := by
  funext y
  show V c main_arg10 (((cfg1.win 7).blk t).view.emb y) = V c main_arg10 y
  refine congrArg _ (funext fun a => Fin.ext ?_)
  have e := idx_whole1 t
  match a with
  | ⟨0, _⟩ => show win1_7.index t (0 : Fin 1) * 512 + 1 * (y 0).val = (y 0).val; rw [e.2.1]; omega

/-- Window 9 stages its whole array: its block at any point is the array as the region finds it. -/
theorem blk9 (c : Dev nD) (t : Fin cfg1.N) : (iblk1 V c 9 t : S4096.Idx → EReal) = V c main_arg12 := by
  funext y
  show V c main_arg12 (((cfg1.win 9).blk t).view.emb y) = V c main_arg12 y
  refine congrArg _ (funext fun a => Fin.ext ?_)
  have e := idx_whole1 t
  match a with
  | ⟨0, _⟩ => show win1_9.index t (0 : Fin 1) * 4096 + 1 * (y 0).val = (y 0).val; rw [e.2.2.1]; omega

/-- Window 11 stages its whole array: its block at any point is the array as the region finds it. -/
theorem blk11 (c : Dev nD) (t : Fin cfg1.N) : (iblk1 V c 11 t : S102.Idx → EReal) = V c main_v7 := by
  funext y
  show V c main_v7 (((cfg1.win 11).blk t).view.emb y) = V c main_v7 y
  refine congrArg _ (funext fun a => Fin.ext ?_)
  have e := idx_whole1 t
  match a with
  | ⟨0, _⟩ => show win1_11.index t (0 : Fin 1) * 102 + 1 * (y 0).val = (y 0).val; rw [e.2.2.2.1]; omega

/-- Window 13 stages its whole array: its block at any point is the array as the region finds it. -/
theorem blk13 (c : Dev nD) (t : Fin cfg1.N) : (iblk1 V c 13 t : S51.Idx → EReal) = V c main_arg16 := by
  funext y
  show V c main_arg16 (((cfg1.win 13).blk t).view.emb y) = V c main_arg16 y
  refine congrArg _ (funext fun a => Fin.ext ?_)
  have e := idx_whole1 t
  match a with
  | ⟨0, _⟩ => show win1_13.index t (0 : Fin 1) * 51 + 1 * (y 0).val = (y 0).val; rw [e.2.2.2.2]; omega

/-- Row p of window 0's block at point t is row 256·t + p of its array. -/
theorem row0 (c : Dev nD) (t : Fin cfg1.N) (p : Fin 256) (l : Fin 1024) (r : Fin 16384) (hr : r.val = t.val * 256 + p.val) :
    (iblk1 V c 0 t : S256x1024.Idx → EReal) (ix2 p l) = V c main_v32 (ix2 r l) := by
  show V c main_v32 (((cfg1.win 0).blk t).view.emb (ix2 p l)) = V c main_v32 (ix2 r l)
  refine congrArg _ (funext fun a => Fin.ext ?_)
  have e := idx_rows t
  match a with
  | ⟨0, _⟩ => show win1_0.index t (0 : Fin 2) * 256 + 1 * p.val = r.val; rw [e.1]; omega
  | ⟨1, _⟩ => show win1_0.index t (1 : Fin 2) * 1024 + 1 * l.val = l.val; rw [e.2.1]; omega

/-- Row p of window 1's block at point t is row 256·t + p of its array. -/
theorem row1 (c : Dev nD) (t : Fin cfg1.N) (p : Fin 256) (l : Fin 32) (r : Fin 16384) (hr : r.val = t.val * 256 + p.val) :
    (iblk1 V c 1 t : S256x32.Idx → EReal) (ix2 p l) = V c main_arg3 (ix2 r l) := by
  show V c main_arg3 (((cfg1.win 1).blk t).view.emb (ix2 p l)) = V c main_arg3 (ix2 r l)
  refine congrArg _ (funext fun a => Fin.ext ?_)
  have e := idx_rows t
  match a with
  | ⟨0, _⟩ => show win1_1.index t (0 : Fin 2) * 256 + 1 * p.val = r.val; rw [e.2.2.1]; omega
  | ⟨1, _⟩ => show win1_1.index t (1 : Fin 2) * 32 + 1 * l.val = l.val; rw [e.2.2.2.1]; omega

/-- Row p of window 2's block at point t is row 256·t + p of its array. -/
theorem row2 (c : Dev nD) (t : Fin cfg1.N) (p : Fin 256) (l : Fin 4096) (r : Fin 16384) (hr : r.val = t.val * 256 + p.val) :
    (iblk1 V c 2 t : S256x4096.Idx → EReal) (ix2 p l) = V c main_arg4 (ix2 r l) := by
  show V c main_arg4 (((cfg1.win 2).blk t).view.emb (ix2 p l)) = V c main_arg4 (ix2 r l)
  refine congrArg _ (funext fun a => Fin.ext ?_)
  have e := idx_rows t
  match a with
  | ⟨0, _⟩ => show win1_2.index t (0 : Fin 2) * 256 + 1 * p.val = r.val; rw [e.2.2.2.2.1]; omega
  | ⟨1, _⟩ => show win1_2.index t (1 : Fin 2) * 4096 + 1 * l.val = l.val; rw [e.2.2.2.2.2.1]; omega

/-- Row p of window 3's block at point t is row 256·t + p of its array. -/
theorem row3 (c : Dev nD) (t : Fin cfg1.N) (p : Fin 256) (l : Fin 51) (r : Fin 16384) (hr : r.val = t.val * 256 + p.val) :
    (iblk1 V c 3 t : S256x51.Idx → EReal) (ix2 p l) = V c main_v46 (ix2 r l) := by
  show V c main_v46 (((cfg1.win 3).blk t).view.emb (ix2 p l)) = V c main_v46 (ix2 r l)
  refine congrArg _ (funext fun a => Fin.ext ?_)
  have e := idx_rows t
  match a with
  | ⟨0, _⟩ => show win1_3.index t (0 : Fin 2) * 256 + 1 * p.val = r.val; rw [e.2.2.2.2.2.2.1]; omega
  | ⟨1, _⟩ => show win1_3.index t (1 : Fin 2) * 51 + 1 * l.val = l.val; rw [e.2.2.2.2.2.2.2.1]; omega

/-- The array the region leaves: `logit` of the arrays as the region finds them, the 102-column weight and bias
    through their halves. -/
def G (c : Dev nD) (w13 w17 : Cert.RelSpec.Mat 4096 51) (b14 b18 : Cert.RelSpec.Row 51) : S16384x51.Idx → EReal :=
  fun i => Cert.RelSpec.logit (M := 16384) (V c main_v32) (V c main_v46) (V c main_arg3) (V c main_arg4)
    (V c main_v1) (V c main_arg8) (V c main_v2) (V c main_arg10) (V c main_v3) (V c main_arg12)
    w13 b14 (V c main_v4) (V c main_arg16) w17 b18 (i 0) (i 1)

/-- What point t writes back is block t of `G`. -/
theorem flushed_eq (c : Dev nD) (t : Fin cfg1.N) (w13 w17 : Cert.RelSpec.Mat 4096 51) (b14 b18 : Cert.RelSpec.Row 51)
    (hw13 : ∀ (k : Fin 4096) (q : Fin 51), V c main_v6 (ix2 k (⟨q.val, by have := q.isLt; omega⟩ : Fin 102)) = w13 (ix2 k q))
    (hw17 : ∀ (k : Fin 4096) (q : Fin 51), V c main_v6 (ix2 k (⟨51 + q.val, by have := q.isLt; omega⟩ : Fin 102)) = w17 (ix2 k q))
    (hb14 : ∀ q : Fin 51, V c main_v7 (ix1 (⟨q.val, by have := q.isLt; omega⟩ : Fin 102)) = b14 (ix1 q))
    (hb18 : ∀ q : Fin 51, V c main_v7 (ix1 (⟨51 + q.val, by have := q.isLt; omega⟩ : Fin 102)) = b18 (ix1 q)) :
    (dat1 V c).flushed 14 t = ((cfg1.win 14).blk t).view.read (Elt Ideal) (G V c w13 w17 b14 b18) := by
  show (cfg1.win 14).cut (grid1.coords t) ((dat1 V c).after 14 t) = _
  rw [after1_14]
  unfold out1_14
  rw [View.canon_unit_zero hz2]
  simp only [View.ld_unit_zero (S := S256x1024) hz2,
    View.ld_unit_zero (S := S1024x4096) hz2,
    View.ld_unit_zero (S := S256x32) hz2,
    View.ld_unit_zero (S := S32x512) hz2,
    View.ld_unit_zero (S := S512x4096) hz2,
    View.ld_unit_zero (S := S4096x102) hz2,
    View.ld_unit_zero (S := S256x4096) hz2,
    View.ld_unit_zero (S := S4096x51) hz2,
    View.ld_unit_zero (S := S256x51) hz2,
    View.ld_unit_zero (S := S4096) hz1,
    View.ld_unit_zero (S := S512) hz1,
    View.ld_unit_zero (S := S102) hz1,
    View.ld_unit_zero (S := S51) hz1]
  funext y
  obtain ⟨p, q, rfl⟩ : ∃ (p : Fin 256) (q : Fin 51), y = ix2 p q := ⟨y 0, y 1, eq_ix2 y⟩
  show k1_pay1 (k1_pay2 (iblk1 V c 0 t) (iblk1 V c 4 t) (iblk1 V c 5 t) (iblk1 V c 1 t) (iblk1 V c 6 t) (iblk1 V c 7 t)
      (iblk1 V c 8 t) (iblk1 V c 9 t) (iblk1 V c 10 t)) (iblk1 V c 11 t) (iblk1 V c 2 t) (iblk1 V c 12 t) (iblk1 V c 13 t)
      (iblk1 V c 3 t) (ix2 p q) = G V c w13 w17 b14 b18 (((cfg1.win 14).blk t).view.emb (ix2 p q))
  have ht : t.val < 64 := lt_of_lt_of_eq t.isLt N_1
  have hp : p.val < 256 := p.isLt
  have e14 : ((cfg1.win 14).blk t).view.emb (ix2 p q)
      = ix2 (⟨t.val * 256 + p.val, by omega⟩ : Fin 16384) q := by
    funext a; apply Fin.ext
    have e := idx_rows t
    match a with
    | ⟨0, _⟩ => show win1_14.index t (0 : Fin 2) * 256 + 1 * p.val = t.val * 256 + p.val; rw [e.2.2.2.2.2.2.2.2.1]; omega
    | ⟨1, _⟩ => show win1_14.index t (1 : Fin 2) * 51 + 1 * q.val = q.val; rw [e.2.2.2.2.2.2.2.2.2]; omega
  rw [e14, blk4 V c t, blk5 V c t, blk6 V c t, blk7 V c t, blk8 V c t, blk9 V c t, blk10 V c t, blk11 V c t,
    blk12 V c t, blk13 V c t]
  refine (PairBlock.payload_apply (iblk1 V c 0 t) (V c main_v1) (V c main_arg8) (iblk1 V c 1 t) (V c main_v2)
    (V c main_arg10) (V c main_v3) (V c main_arg12) (V c main_v6) (V c main_v7) (iblk1 V c 2 t) (V c main_v4)
    (V c main_arg16) (iblk1 V c 3 t) w13 w17 b14 b18 hw13 hw17 hb14 hb18 p q).trans ?_
  exact Cert.RelSpec.logit_row_congr _ _ _ _ _ _ _ _ _ _ _ _ _ _ _ _ _ _ _ _ p
    (⟨t.val * 256 + p.val, by omega⟩ : Fin 16384) q
    (fun l => row0 V c t p l _ rfl) (row3 V c t p q _ rfl) (fun b => row1 V c t p b _ rfl) (fun k => row2 V c t p k _ rfl)

/-- An index of the output array is in point t's block iff each coordinate is in the block's range on its axis. -/
theorem mem_blk (t : Fin cfg1.N) (i : S16384x51.Idx) :
    i ∈ ((cfg1.win 14).blk t).view.set ↔ ∀ a : Fin 2, win1_14.index t a * S256x51.size a ≤ (i a).val
      ∧ (i a).val < win1_14.index t a * S256x51.size a + S256x51.size a := by
  show i ∈ ((View.whole main_v47).slice (win1_14.rect t)).set ↔ _
  rw [View.set_slice_whole, Rect.mem_set_unit]
  exact Iff.rfl

/-- The 64 blocks tile the array: row r lies in the block of point r / 256. -/
theorem cover (i : S16384x51.Idx) :
    ∃ t : Fin cfg1.N, (cfg1.win 14).flush t = true ∧ i ∈ ((cfg1.win 14).blk t).view.set := by
  have hi0 : (i 0).val < 16384 := (i 0).isLt
  have hi1 : (i 1).val < 51 := (i 1).isLt
  let t : Fin cfg1.N := ⟨(i 0).val / 256, lt_of_lt_of_eq (by omega) N_1.symm⟩
  refine ⟨t, flush1_14 t, ?_⟩
  rw [mem_blk]
  have e := idx_rows t
  have ht : t.val = (i 0).val / 256 := rfl
  intro a
  match a with
  | ⟨0, _⟩ =>
    show win1_14.index t (0 : Fin 2) * 256 ≤ (i 0).val ∧ (i 0).val < win1_14.index t (0 : Fin 2) * 256 + 256
    rw [e.2.2.2.2.2.2.2.2.1, ht]; omega
  | ⟨1, _⟩ =>
    show win1_14.index t (1 : Fin 2) * 51 ≤ (i 1).val ∧ (i 1).val < win1_14.index t (1 : Fin 2) * 51 + 51
    rw [e.2.2.2.2.2.2.2.2.2]; omega

/-- The output array after the region's last write-back is `G`. -/
theorem final (c : Dev nD) (w13 w17 : Cert.RelSpec.Mat 4096 51) (b14 b18 : Cert.RelSpec.Row 51)
    (hw13 : ∀ (k : Fin 4096) (q : Fin 51), V c main_v6 (ix2 k (⟨q.val, by have := q.isLt; omega⟩ : Fin 102)) = w13 (ix2 k q))
    (hw17 : ∀ (k : Fin 4096) (q : Fin 51), V c main_v6 (ix2 k (⟨51 + q.val, by have := q.isLt; omega⟩ : Fin 102)) = w17 (ix2 k q))
    (hb14 : ∀ q : Fin 51, V c main_v7 (ix1 (⟨q.val, by have := q.isLt; omega⟩ : Fin 102)) = b14 (ix1 q))
    (hb18 : ∀ q : Fin 51, V c main_v7 (ix1 (⟨51 + q.val, by have := q.isLt; omega⟩ : Fin 102)) = b18 (ix1 q)) :
    (dat1 V c).arrAt 14 cfg1.N = G V c w13 w17 b14 b18 :=
  (dat1 V c).arrAt_eq_of_cover 14 (G V c w13 w17 b14 b18)
    (fun t _ => flushed_eq V c t w13 w17 b14 b18 hw13 hw17 hb14 hb18) cover

end Cert.KernelIdeal.PairArray

end
-- ==== Proof.EmbArray.lean ====
/-
  The array the first call leaves, as one function of the arguments.

  The call visits four grid points. Point `t` multiplies rows `1024·t … 1024·t + 1023` of the 4096×512 contexts by the
  512×1024 weights, adds the 1024-long bias to every row, and writes the 1024×1024 result over the same rows of a
  4096×1024 array. The four row blocks fill that array, so afterwards its entry `(o, n)` is
  `Σ_k x0[o,k]·x5[k,n] + x6[n]`: the array is `RelSpec.emb` of the three arguments. Over extended reals the format
  changes on the way (of the contexts, the weights and the result) are the identity.
-/
import proofs.«143274_j39986145525795_2_alg».proof.Proof.Gen.KernelIdeal.Frame
import proofs.«143274_j39986145525795_2_alg».proof.Proof.RelSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.EmbValue

open Idealize.ShloMosaic Idealize.ShloMosaic.TcCoe Idealize.ShloMosaic.Tactic
open Idealize.SL.Sem
open Idealize.ShloMosaic.Pipeline (Dat Cfg Window)
open Idealize.ShloMosaic.ValueIdx Idealize.ShloMosaic.StableHlo
open scoped BigOperators

/-! ## One entry of a block's result

The body multiplies a 1024×512 block by the 512×1024 weights on the matrix unit into a zero accumulator, adds the
1024-long bias repeated over the rows, and changes formats (the identity on extended reals). -/

/-- The matrix unit reads the left operand at the result's row … -/
theorem lhs_row (i : S1024x1024.Idx) (κ : dot_S1024x512_S512x1024_S1024x1024_1_0_0_1_n_n.contr.Idx) :
    (dot_S1024x512_S512x1024_S1024x1024_1_0_0_1_n_n.lhsIdx i κ 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- … and the contraction coordinate, … -/
theorem lhs_col (i : S1024x1024.Idx) (κ : dot_S1024x512_S512x1024_S1024x1024_1_0_0_1_n_n.contr.Idx) :
    (dot_S1024x512_S512x1024_S1024x1024_1_0_0_1_n_n.lhsIdx i κ 1).val = (κ ⟨0, by decide⟩).val :=
  dot_S1024x512_S512x1024_S1024x1024_1_0_0_1_n_n.lhsIdx_val_of_single rfl i κ
/-- … the right operand at the contraction coordinate … -/
theorem rhs_row (i : S1024x1024.Idx) (κ : dot_S1024x512_S512x1024_S1024x1024_1_0_0_1_n_n.contr.Idx) :
    (dot_S1024x512_S512x1024_S1024x1024_1_0_0_1_n_n.rhsIdx i κ 0).val = (κ ⟨0, by decide⟩).val :=
  dot_S1024x512_S512x1024_S1024x1024_1_0_0_1_n_n.rhsIdx_val_of_single rfl i κ
/-- … and the result's column. -/
theorem rhs_col (i : S1024x1024.Idx) (κ : dot_S1024x512_S512x1024_S1024x1024_1_0_0_1_n_n.contr.Idx) :
    (dot_S1024x512_S512x1024_S1024x1024_1_0_0_1_n_n.rhsIdx i κ 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- One entry of the block's result: row `p` of the left block against column `q` of the weights, plus the bias at `q`.
    The contraction index has one axis of extent 512; the sum is re-indexed through that axis's coordinate. The bias
    is the [1024] row cast to [1, 1024] and repeated over the 1024 rows. -/
theorem pay_apply (x0 : Vec Ideal S1024x512 .f32) (x1 : Vec Ideal S512x1024 .bf16) (x2 : Vec Ideal S1024 .f32)
    (p : Fin 1024) (q : Fin 1024) :
    Gen.k0_pay1 (F := Ideal) x0 x1 x2 (ix2 p q) = ∑ k : Fin 512, x0 (ix2 p k) * x1 (ix2 k q) + x2 (ix1 q) := by
  unfold Gen.k0_pay1
  rw [truncf_apply, addf_apply, shapeCast_self, broadcastTo_1b_ab_apply, shapeCast_a_1a_apply]
  congr 1
  refine (Ideal.matmul_constant_zero_apply (φ₁ := .bf16) (φ₂ := .bf16)
    dot_S1024x512_S512x1024_S1024x1024_1_0_0_1_n_n none (truncf .bf16 x0 Gen.bitsLt_bf16_f32) x1 (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k :=
    funext fun a => Fin.ext (by
      match a with
      | ⟨0, _⟩ => exact lhs_row _ _
      | ⟨1, _⟩ => exact (lhs_col _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q :=
    funext fun a => Fin.ext (by
      match a with
      | ⟨0, _⟩ => exact (rhs_row _ _).trans hk
      | ⟨1, _⟩ => exact rhs_col _ _)
  rw [el, er, truncf_apply]

/-! ## What the three input arrays hold when the first call is entered

Eight host operations run before it; none writes the first or the third array, and the second is the 512×1024 weights
after a format change, which is the identity on extended reals. -/

variable (m : (ℓ : Loc nD τ sig) → Buf (Elt Ideal) ℓ) (ρ : Dev nD → PrngReg)

theorem entry_lhs (c : Dev nD) : Gen.V1 m ρ c main_arg0 = m ((c : Thread nD τ).loc main_arg0) := by
  show StableHlo.after Gen.hostOps0 (Gen.W0 m ρ c) (Proc.devRef .tc main_arg0) = _
  after_results

theorem entry_weights (c : Dev nD) :
    (Gen.V1 m ρ c main_v0 : S512x1024.Idx → EReal) = (m ((c : Thread nD τ).loc main_arg5) : S512x1024.Idx → EReal) := by
  show StableHlo.after Gen.hostOps0 (Gen.W0 m ρ c) (Proc.devRef .tc main_v0) = _
  after_results
  rfl

theorem entry_bias (c : Dev nD) : Gen.V1 m ρ c main_arg6 = m ((c : Thread nD τ).loc main_arg6) := by
  show StableHlo.after Gen.hostOps0 (Gen.W0 m ρ c) (Proc.devRef .tc main_arg6) = _
  after_results

/-! ## A block's entry is the whole array's entry -/

/-- If a 1024×512 block holds rows `b·1024, …` of `A0`, and the other two operands are `A1` and `A2` whole, then the
    body's result at `y` is entry `i` of the projected array, for `i` the index `b·1024` rows below `y`. -/
theorem pay_eq_emb (A0 : RelSpec.Mat 4096 512) (A1 : RelSpec.Mat 512 1024) (A2 : RelSpec.Row 1024)
    (x0 : Vec Ideal S1024x512 .f32) (x1 : Vec Ideal S512x1024 .bf16) (x2 : Vec Ideal S1024 .f32)
    (y : S1024x1024.Idx) (i : S4096x1024.Idx) (b : ℕ)
    (h0 : ∀ (u : S1024x512.Idx) (v : S4096x512.Idx), (v 0).val = b * 1024 + (u 0).val → (v 1).val = (u 1).val → x0 u = A0 v)
    (h1 : x1 = A1) (h2 : x2 = A2)
    (hi0 : (i 0).val = b * 1024 + (y 0).val) (hi1 : (i 1).val = (y 1).val) :
    Gen.k0_pay1 (F := Ideal) x0 x1 x2 y = RelSpec.emb A0 A1 A2 i := by
  obtain ⟨p, q, rfl⟩ : ∃ (p q : Fin 1024), y = ix2 p q := ⟨y 0, y 1, eq_ix2 y⟩
  obtain ⟨r, s, rfl⟩ : ∃ (r : Fin 4096) (s : Fin 1024), i = ix2 r s := ⟨i 0, i 1, eq_ix2 i⟩
  obtain rfl : s = q := Fin.ext hi1
  subst h1 h2
  rw [pay_apply]
  unfold RelSpec.emb RelSpec.affine
  show _ = ∑ k : Fin 512, A0 (ix2 r k) * x1 (ix2 k s) + x2 (ix1 s)
  congr 1
  refine Finset.sum_congr rfl fun k _ => ?_
  rw [h0 (ix2 p k) (ix2 r k) hi0 rfl]

theorem hz2 : (![0, 0] : Fin 2 → Nat) = fun _ => 0 := funext fun a => by fin_cases a <;> rfl
theorem hz1 : (![0] : Fin 1 → Nat) = fun _ => 0 := funext fun a => by fin_cases a <;> rfl

/-- The printed index maps over the four grid points: the left operand's block and the result's block are block `t`
    of their arrays' rows, every other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the projected array. -/
theorem flushed_eq (c : Dev nD) (t : Fin cfg0.N) :
    (Gen.dat0 (F := Ideal) (Gen.V1 m ρ) c).flushed 3 t
      = ((cfg0.win 3).blk t).view.read (Elt Ideal)
          (RelSpec.emb (m ((c : Thread nD τ).loc main_arg0)) (m ((c : Thread nD τ).loc main_arg5)) (m ((c : Thread nD τ).loc main_arg6))) := by
  show (cfg0.win 3).cut (grid0.coords t) ((Gen.dat0 (Gen.V1 m ρ) c).after 3 t) = _
  rw [Gen.after0_3]
  unfold Gen.out0_3
  rw [View.canon_unit_zero hz2]
  simp only [View.ld_unit_zero (S := S1024x512) hz2, View.ld_unit_zero (S := S512x1024) hz2, View.ld_unit_zero (S := S1024) hz1]
  obtain ⟨e00, e01, e10, e11, e20, e30, e31⟩ := idx_facts t
  funext j
  refine pay_eq_emb _ _ _ _ _ _ ((cfg0.win 3).xinj (grid0.coords t) j) (((cfg0.win 3).blk t).view.emb j) (win0_3.index t (0 : Fin 2))
    ?_ ?_ ?_ ?_ ?_
  · -- the left operand's block is rows `t·1024, …` of the first array
    intro u v hv0 hv1
    show Gen.V1 m ρ c main_arg0 (((cfg0.win 0).blk t).view.emb u) = m ((c : Thread nD τ).loc main_arg0) v
    rw [entry_lhs]
    refine congrArg _ (funext fun a => Fin.ext ?_)
    match a with
    | ⟨0, _⟩ => show win0_0.index t (0 : Fin 2) * 1024 + 1 * (u 0).val = (v 0).val; omega
    | ⟨1, _⟩ => show win0_0.index t (1 : Fin 2) * 512 + 1 * (u 1).val = (v 1).val; omega
  · -- the weights' one block is the whole array
    funext u
    show Gen.V1 m ρ c main_v0 (((cfg0.win 1).blk t).view.emb u) = m ((c : Thread nD τ).loc main_arg5) u
    rw [entry_weights]
    refine congrArg _ (funext fun a => Fin.ext ?_)
    match a with
    | ⟨0, _⟩ => show win0_1.index t (0 : Fin 2) * 512 + 1 * (u 0).val = (u 0).val; omega
    | ⟨1, _⟩ => show win0_1.index t (1 : Fin 2) * 1024 + 1 * (u 1).val = (u 1).val; omega
  · -- and so is the bias's
    funext u
    show Gen.V1 m ρ c main_arg6 (((cfg0.win 2).blk t).view.emb u) = m ((c : Thread nD τ).loc main_arg6) u
    rw [entry_bias]
    refine congrArg _ (funext fun a => Fin.ext ?_)
    match a with
    | ⟨0, _⟩ => show win0_2.index t (0 : Fin 1) * 1024 + 1 * (u 0).val = (u 0).val; omega
  · show win0_3.index t (0 : Fin 2) * 1024 + 1 * (j 0).val = win0_3.index t (0 : Fin 2) * 1024 + (j 0).val; omega
  · show win0_3.index t (1 : Fin 2) * 1024 + 1 * (j 1).val = (j 1).val; omega

/-- An index of the array is in point `t`'s block iff each coordinate is in the block's range on its axis. -/
theorem mem_blk (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v8).slice (win0_3.rect t)).set ↔ _
  rw [View.set_slice_whole, Rect.mem_set_unit]
  exact Iff.rfl

/-- Row `r` of the array lies in the block of point `r / 1024`: the four blocks of 1024 rows fill the 4096 rows. -/
theorem cover (i : S4096x1024.Idx) :
    ∃ t : Fin cfg0.N, (cfg0.win 3).flush t = true ∧ i ∈ ((cfg0.win 3).blk t).view.set := by
  have hi0 : (i 0).val < 4096 := idx2_lt0 i
  have hi1 : (i 1).val < 1024 := idx2_lt1 i
  have hN : cfg0.N = 4 := Gen.N_0
  have ht : (i 0).val / 1024 < cfg0.N := by rw [hN]; omega
  obtain ⟨-, -, -, -, -, e30, e31⟩ := idx_facts ⟨(i 0).val / 1024, ht⟩
  refine ⟨⟨(i 0).val / 1024, ht⟩, Gen.flush0_3 _, ?_⟩
  rw [mem_blk]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e31]; omega

/-- The array the first call leaves is the projected array: every point writes its block of it, and the blocks fill it. -/
theorem final (m : (ℓ : Loc nD τ sig) → Buf (Elt Ideal) ℓ) (ρ : Dev nD → PrngReg) (c : Dev nD) :
    (Gen.dat0 (F := Ideal) (Gen.V1 m ρ) c).arrAt 3 cfg0.N
      = Cert.RelSpec.emb (m ((c : Thread nD τ).loc main_arg0)) (m ((c : Thread nD τ).loc main_arg5)) (m ((c : Thread nD τ).loc main_arg6)) :=
  (Gen.dat0 (F := Ideal) (Gen.V1 m ρ) c).arrAt_eq_of_cover 3
    (Cert.RelSpec.emb (m ((c : Thread nD τ).loc main_arg0)) (m ((c : Thread nD τ).loc main_arg5)) (m ((c : Thread nD τ).loc main_arg6)))
    (fun t _ => flushed_eq m ρ c t) cover

end Cert.KernelIdeal.EmbValue

end
-- ==== Proof.RefLogit.lean ====
/-
  The reference program read at one index.

  Each entry of the reference's result is obtained from the entries of its operands by a fixed chain of
  matrix products, row-broadcast biases, rectifications, one entrywise product and a logistic gate. Reading
  that chain at the index `(r, j)` and naming the three index maps of every matrix product
  (`(r, j), k ↦ (r, k)` on the left, `↦ (k, j)` on the right, and `(r, j) ↦ j` for a bias) gives the closed
  formula `Cert.RelSpec.logit`. The pair-context array and the frequency bias are produced by gathers and a
  concatenation; they are not read here and stay as the arrays the program computes.
-/
import proofs.«143274_j39986145525795_2_alg».proof.Proof.Gen.ReferenceIdeal.Read
import proofs.«143274_j39986145525795_2_alg».proof.Proof.RelSpec

noncomputable section

open scoped BigOperators

namespace Cert.ReferenceIdeal.RefValue

open Cert.ReferenceIdeal Cert.ReferenceIdeal.Gen Idealize.ShloMosaic Idealize.ShloMosaic.ValueIdx
open Cert.RelSpec (Mat Row relu affine emb spatial pairFeat logit zeroWord)

/-! ## Index maps

A matrix product's entry `(r, j)` sums over `k` the left operand at `(r, k)` times the right at `(k, j)`;
a bias row broadcast over the rows is read at `j`. -/

theorem lidx_v0 (r : Fin 4096) (j : Fin 1024) (k : Fin 512) : Read.lidx_main_v0 (ix2 r j) k = ix2 r k :=
  funext fun a => by match a with | ⟨0, _⟩ => rfl | ⟨1, _⟩ => rfl
theorem ridx_v0 (r : Fin 4096) (j : Fin 1024) (k : Fin 512) : Read.ridx_main_v0 (ix2 r j) k = ix2 k j :=
  funext fun a => by match a with | ⟨0, _⟩ => rfl | ⟨1, _⟩ => rfl
theorem lidx_v28 (r : Fin 16384) (j : Fin 4096) (k : Fin 1024) : Read.lidx_main_v28 (ix2 r j) k = ix2 r k :=
  funext fun a => by match a with | ⟨0, _⟩ => rfl | ⟨1, _⟩ => rfl
theorem ridx_v28 (r : Fin 16384) (j : Fin 4096) (k : Fin 1024) : Read.ridx_main_v28 (ix2 r j) k = ix2 k j :=
  funext fun a => by match a with | ⟨0, _⟩ => rfl | ⟨1, _⟩ => rfl
theorem lidx_v33 (r : Fin 16384) (j : Fin 512) (k : Fin 32) : Read.lidx_main_v33 (ix2 r j) k = ix2 r k :=
  funext fun a => by match a with | ⟨0, _⟩ => rfl | ⟨1, _⟩ => rfl
theorem ridx_v33 (r : Fin 16384) (j : Fin 512) (k : Fin 32) : Read.ridx_main_v33 (ix2 r j) k = ix2 k j :=
  funext fun a => by match a with | ⟨0, _⟩ => rfl | ⟨1, _⟩ => rfl
theorem lidx_v38 (r : Fin 16384) (j : Fin 4096) (k : Fin 512) : Read.lidx_main_v38 (ix2 r j) k = ix2 r k :=
  funext fun a => by match a with | ⟨0, _⟩ => rfl | ⟨1, _⟩ => rfl
theorem ridx_v38 (r : Fin 16384) (j : Fin 4096) (k : Fin 512) : Read.ridx_main_v38 (ix2 r j) k = ix2 k j :=
  funext fun a => by match a with | ⟨0, _⟩ => rfl | ⟨1, _⟩ => rfl
theorem lidx_v44 (r : Fin 16384) (j : Fin 51) (k : Fin 4096) : Read.lidx_main_v44 (ix2 r j) k = ix2 r k :=
  funext fun a => by match a with | ⟨0, _⟩ => rfl | ⟨1, _⟩ => rfl
theorem ridx_v44 (r : Fin 16384) (j : Fin 51) (k : Fin 4096) : Read.ridx_main_v44 (ix2 r j) k = ix2 k j :=
  funext fun a => by match a with | ⟨0, _⟩ => rfl | ⟨1, _⟩ => rfl
theorem lidx_v48 (r : Fin 16384) (j : Fin 51) (k : Fin 4096) : Read.lidx_main_v48 (ix2 r j) k = ix2 r k :=
  funext fun a => by match a with | ⟨0, _⟩ => rfl | ⟨1, _⟩ => rfl
theorem ridx_v48 (r : Fin 16384) (j : Fin 51) (k : Fin 4096) : Read.ridx_main_v48 (ix2 r j) k = ix2 k j :=
  funext fun a => by match a with | ⟨0, _⟩ => rfl | ⟨1, _⟩ => rfl
theorem lidx_v66 (r : Fin 16384) (j : Fin 51) (k : Fin 4096) : Read.lidx_main_v66 (ix2 r j) k = ix2 r k :=
  funext fun a => by match a with | ⟨0, _⟩ => rfl | ⟨1, _⟩ => rfl
theorem ridx_v66 (r : Fin 16384) (j : Fin 51) (k : Fin 4096) : Read.ridx_main_v66 (ix2 r j) k = ix2 k j :=
  funext fun a => by match a with | ⟨0, _⟩ => rfl | ⟨1, _⟩ => rfl
theorem bidx_v2 (r : Fin 4096) (j : Fin 1024) : Read.idx_main_v1 (Read.idx_main_v2 (ix2 r j)) = ix1 j :=
  funext fun a => by match a with | ⟨0, _⟩ => rfl
theorem bidx_v30 (r : Fin 16384) (j : Fin 4096) : Read.idx_main_v29 (Read.idx_main_v30 (ix2 r j)) = ix1 j :=
  funext fun a => by match a with | ⟨0, _⟩ => rfl
theorem bidx_v35 (r : Fin 16384) (j : Fin 512) : Read.idx_main_v34 (Read.idx_main_v35 (ix2 r j)) = ix1 j :=
  funext fun a => by match a with | ⟨0, _⟩ => rfl
theorem bidx_v40 (r : Fin 16384) (j : Fin 4096) : Read.idx_main_v39 (Read.idx_main_v40 (ix2 r j)) = ix1 j :=
  funext fun a => by match a with | ⟨0, _⟩ => rfl
theorem bidx_v46 (r : Fin 16384) (j : Fin 51) : Read.idx_main_v45 (Read.idx_main_v46 (ix2 r j)) = ix1 j :=
  funext fun a => by match a with | ⟨0, _⟩ => rfl
theorem bidx_v50 (r : Fin 16384) (j : Fin 51) : Read.idx_main_v49 (Read.idx_main_v50 (ix2 r j)) = ix1 j :=
  funext fun a => by match a with | ⟨0, _⟩ => rfl
theorem bidx_v68 (r : Fin 16384) (j : Fin 51) : Read.idx_main_v67 (Read.idx_main_v68 (ix2 r j)) = ix1 j :=
  funext fun a => by match a with | ⟨0, _⟩ => rfl

/-! ## The float words

The word `0x3F800000` is the real number one; the zero word is never evaluated. -/

theorem one_word : Ideal.ofBits .f32 0x3F800000#32 = 1 := by
  simp [Ideal.ofBits, Ideal.ieee, -EReal.coe_mul]; norm_num

variable (x0 : (⟨S4096x512, .f32⟩ : BufTy).Contents (Elt Ideal)) (x1 x2 : (⟨S16384x2, .i32⟩ : BufTy).Contents (Elt Ideal))
  (x3 : (⟨S16384x32, .f32⟩ : BufTy).Contents (Elt Ideal)) (x4 : (⟨S16384x4096, .f32⟩ : BufTy).Contents (Elt Ideal))
  (x5 : (⟨S512x1024, .f32⟩ : BufTy).Contents (Elt Ideal)) (x6 : (⟨S1024, .f32⟩ : BufTy).Contents (Elt Ideal))
  (x7 : (⟨S1024x4096, .f32⟩ : BufTy).Contents (Elt Ideal)) (x8 : (⟨S4096, .f32⟩ : BufTy).Contents (Elt Ideal))
  (x9 : (⟨S32x512, .f32⟩ : BufTy).Contents (Elt Ideal)) (x10 : (⟨S512, .f32⟩ : BufTy).Contents (Elt Ideal))
  (x11 : (⟨S512x4096, .f32⟩ : BufTy).Contents (Elt Ideal)) (x12 : (⟨S4096, .f32⟩ : BufTy).Contents (Elt Ideal))
  (x13 : (⟨S4096x51, .f32⟩ : BufTy).Contents (Elt Ideal)) (x14 : (⟨S51, .f32⟩ : BufTy).Contents (Elt Ideal))
  (x15 : (⟨S4096x51, .f32⟩ : BufTy).Contents (Elt Ideal)) (x16 : (⟨S51, .f32⟩ : BufTy).Contents (Elt Ideal))
  (x17 : (⟨S4096x51, .f32⟩ : BufTy).Contents (Elt Ideal)) (x18 : (⟨S51, .f32⟩ : BufTy).Contents (Elt Ideal))
  (x19 : (⟨S22801x51, .f32⟩ : BufTy).Contents (Elt Ideal))

/-! ## The projected object contexts -/

/-- Entry `(o, n)` of the projection is `Σ_k x0[o,k]·x5[k,n] + x6[n]`. -/
theorem emb_apply (o : Fin 4096) (n : Fin 1024) :
    Read.val_main_v3 (F := Ideal) x0 x5 x6 (ix2 o n) = affine x0 x5 x6 o n := by
  rw [Read.val_main_v3_apply, Read.val_main_v0_apply, Read.val_main_v2_apply, Read.val_main_v1_apply]
  simp only [lidx_v0, ridx_v0, bidx_v2, Ideal.addf_def]
  rfl

theorem emb_eq : Read.val_main_v3 (F := Ideal) x0 x5 x6 = emb x0 x5 x6 :=
  funext fun i =>
    (congrArg (Read.val_main_v3 (F := Ideal) x0 x5 x6) (eq_ix2 i)).trans (emb_apply x0 x5 x6 (i 0) (i 1))

/-! ## The spatial gate -/

/-- The hidden spatial feature: `relu(Σ_b x3[r,b]·x9[b,h] + x10[h])`. -/
theorem spatial_apply (r : Fin 16384) (h : Fin 512) :
    Read.val_main_v37 (F := Ideal) x3 x9 x10 (ix2 r h) = spatial x3 x9 x10 r h := by
  rw [Read.val_main_v37_apply, Read.val_main_v36_apply, Read.val_main_v33_apply, Read.val_main_v35_apply,
    Read.val_main_v34_apply, Read.val_main_call1_v0_apply, Read.val_main_call1_cst_apply]
  simp only [lidx_v33, ridx_v33, bidx_v35, Ideal.addf_def, Ideal.maximumf_def, Ideal.ofBits_def]
  rfl

/-- The rectified spatial projection: `relu(Σ_h spatial[r,h]·x11[h,k] + x12[k])`. -/
theorem gate_apply (r : Fin 16384) (k : Fin 4096) :
    Read.val_main_v42 (F := Ideal) x3 x9 x10 x11 x12 (ix2 r k)
      = relu (∑ h : Fin 512, spatial x3 x9 x10 r h * x11 (ix2 h k) + x12 (ix1 k)) := by
  rw [Read.val_main_v42_apply, Read.val_main_v41_apply, Read.val_main_v38_apply, Read.val_main_v40_apply,
    Read.val_main_v39_apply, Read.val_main_call2_v0_apply, Read.val_main_call2_cst_apply]
  simp only [lidx_v38, ridx_v38, bidx_v40, spatial_apply, Ideal.addf_def, Ideal.maximumf_def, Ideal.ofBits_def]
  rfl

/-! ## The pair feature -/

/-- The rectified context projection: `relu(Σ_l ctx[r,l]·x7[l,k] + x8[k])`. -/
theorem ctxProj_apply (r : Fin 16384) (k : Fin 4096) :
    Read.val_main_v32 (F := Ideal) x0 x1 x5 x6 x7 x8 (ix2 r k)
      = relu (affine (Read.val_main_v27 (F := Ideal) x0 x1 x5 x6) x7 x8 r k) := by
  rw [Read.val_main_v32_apply, Read.val_main_v31_apply, Read.val_main_v28_apply, Read.val_main_v30_apply,
    Read.val_main_v29_apply, Read.val_main_call0_v0_apply, Read.val_main_call0_cst_apply]
  simp only [lidx_v28, ridx_v28, bidx_v30, Ideal.addf_def, Ideal.maximumf_def, Ideal.ofBits_def]
  rfl

/-- The pair feature is the product of the two rectified projections. -/
theorem pairFeat_apply (r : Fin 16384) (k : Fin 4096) :
    Read.val_main_v43 (F := Ideal) x0 x1 x3 x5 x6 x7 x8 x9 x10 x11 x12 (ix2 r k)
      = pairFeat (Read.val_main_v27 (F := Ideal) x0 x1 x5 x6) x3 x7 x8 x9 x10 x11 x12 r k := by
  rw [Read.val_main_v43_apply, ctxProj_apply, gate_apply, Ideal.mulf_def]
  rfl

/-! ## The three logits -/

/-- The context logit: `Σ_k pairFeat[r,k]·x13[k,j] + x14[j]`. -/
theorem ctxLogit_apply (r : Fin 16384) (j : Fin 51) :
    Read.val_main_v47 (F := Ideal) x0 x1 x3 x5 x6 x7 x8 x9 x10 x11 x12 x13 x14 (ix2 r j)
      = ∑ k : Fin 4096, pairFeat (Read.val_main_v27 (F := Ideal) x0 x1 x5 x6) x3 x7 x8 x9 x10 x11 x12 r k
          * x13 (ix2 k j) + x14 (ix1 j) := by
  rw [Read.val_main_v47_apply, Read.val_main_v44_apply, Read.val_main_v46_apply, Read.val_main_v45_apply]
  simp only [lidx_v44, ridx_v44, bidx_v46, pairFeat_apply, Ideal.addf_def]

/-- The gate logit: `Σ_k pairFeat[r,k]·x17[k,j] + x18[j]`. -/
theorem gateLogit_apply (r : Fin 16384) (j : Fin 51) :
    Read.val_main_v69 (F := Ideal) x0 x1 x3 x5 x6 x7 x8 x9 x10 x11 x12 x17 x18 (ix2 r j)
      = ∑ k : Fin 4096, pairFeat (Read.val_main_v27 (F := Ideal) x0 x1 x5 x6) x3 x7 x8 x9 x10 x11 x12 r k
          * x17 (ix2 k j) + x18 (ix1 j) := by
  rw [Read.val_main_v69_apply, Read.val_main_v66_apply, Read.val_main_v68_apply, Read.val_main_v67_apply]
  simp only [lidx_v66, ridx_v66, bidx_v68, pairFeat_apply, Ideal.addf_def]

/-- The visual logit: `Σ_k x4[r,k]·x15[k,j] + x16[j]`. -/
theorem visLogit_apply (r : Fin 16384) (j : Fin 51) :
    Read.val_main_v51 (F := Ideal) x4 x15 x16 (ix2 r j) = affine x4 x15 x16 r j := by
  rw [Read.val_main_v51_apply, Read.val_main_v48_apply, Read.val_main_v50_apply, Read.val_main_v49_apply]
  simp only [lidx_v48, ridx_v48, bidx_v50, Ideal.addf_def]
  rfl

/-! ## The logistic gate and the result

The reference spells the logistic function as `1 / (1 + exp(−s))`, which is its definition over the extended reals. -/

theorem sigma_apply (r : Fin 16384) (j : Fin 51) :
    Read.val_main_v77 (F := Ideal) x0 x1 x2 x3 x4 x5 x6 x7 x8 x9 x10 x11 x12 x15 x16 x17 x18 x19 (ix2 r j)
      = Ideal.logistic ((affine x4 x15 x16 r j + Read.val_main_v65 (F := Ideal) x2 x19 (ix2 r j)) +
          (∑ k : Fin 4096, pairFeat (Read.val_main_v27 (F := Ideal) x0 x1 x5 x6) x3 x7 x8 x9 x10 x11 x12 r k
            * x17 (ix2 k j) + x18 (ix1 j))) := by
  rw [Read.val_main_v77_apply, Read.val_main_v76_apply, Read.val_main_cst_6_apply, Read.val_main_v75_apply,
    Read.val_main_v74_apply, Read.val_main_cst_apply, Read.val_main_v73_apply, Read.val_main_v72_apply,
    Read.val_main_v71_apply, Read.val_main_v70_apply, visLogit_apply, gateLogit_apply]
  simp only [Ideal.hostDivf_def, Ideal.addf_def, Ideal.hostUnary_exp_def, Ideal.hostNegf_def, Ideal.negf_def,
    Ideal.ofBits_def, one_word]
  rfl

theorem result_apply (r : Fin 16384) (j : Fin 51) :
    Read.val_main_v78 (F := Ideal) x0 x1 x2 x3 x4 x5 x6 x7 x8 x9 x10 x11 x12 x13 x14 x15 x16 x17 x18 x19 (ix2 r j)
      = logit (Read.val_main_v27 (F := Ideal) x0 x1 x5 x6) (Read.val_main_v65 (F := Ideal) x2 x19)
          x3 x4 x7 x8 x9 x10 x11 x12 x13 x14 x15 x16 x17 x18 r j := by
  rw [Read.val_main_v78_apply, ctxLogit_apply, sigma_apply, Ideal.mulf_def]
  rfl

end Cert.ReferenceIdeal.RefValue

end
-- ==== Proof.PairInputs.lean ====
/-
  What the second kernel finds in its fourteen input arrays.

  Between the launch and the second kernel run eight host operations, the first kernel, and forty-five more host
  operations. Read at the second kernel's inputs, that fold gives:
    * six arguments untouched;
    * four weights through a change of float format, the identity on extended reals;
    * the 102-column weight and the 102-entry bias: two 51-wide arguments side by side, so a left column reads the
      first and column 51 + q the second at q;
    * the pair-context array: the first kernel's output — the projected object contexts, which the reference also
      forms — pushed through a reshape, two slices, two more reshapes, two gathers at indices normalised from the
      integer pair indices, and a concatenation. The reference pushes ITS projection through the same operations,
      so the two arrays are one function of equal inputs, and the chain is never opened;
    * the frequency bias: a gather from the table at an index computed from the integer labels, again the same
      operations in both programs.
-/
import proofs.«143274_j39986145525795_2_alg».proof.Proof.Gen.KernelIdeal.Frame
import proofs.«143274_j39986145525795_2_alg».proof.Proof.Gen.ReferenceIdeal.Read
import proofs.«143274_j39986145525795_2_alg».proof.Proof.RelSpec
import proofs.«143274_j39986145525795_2_alg».proof.Proof.EmbArray
import proofs.«143274_j39986145525795_2_alg».proof.Proof.RefLogit
import Idealize.ShloMosaic.Lib.StableHlo.Run
import Idealize.ShloMosaic.Lib.Pipeline.Value
import Idealize.ShloMosaic.Lib.ValueIdx

set_option maxRecDepth 16384

noncomputable section

namespace Cert.KernelIdeal.PairInputs

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## Arguments and narrowed weights -/

/-- Argument 3 reaches the second kernel as launched: nothing before it writes it. -/
theorem entry_arg3 (c : Dev nD) : V3 m ρ c main_arg3 = m ((c : Thread nD τ).loc main_arg3) :=
  ((W4_arr m ρ c 1).trans (((dat1 (V3 m ρ) c).arrAt_in 1 rfl _).trans (A_eq1 (V3 m ρ) c 1))).symm.trans (W4_main_arg3 m ρ c)

/-- Argument 4 reaches the second kernel as launched: nothing before it writes it. -/
theorem entry_arg4 (c : Dev nD) : V3 m ρ c main_arg4 = m ((c : Thread nD τ).loc main_arg4) :=
  ((W4_arr m ρ c 2).trans (((dat1 (V3 m ρ) c).arrAt_in 2 rfl _).trans (A_eq1 (V3 m ρ) c 2))).symm.trans (W4_main_arg4 m ρ c)

/-- Argument 8 reaches the second kernel as launched: nothing before it writes it. -/
theorem entry_arg8 (c : Dev nD) : V3 m ρ c main_arg8 = m ((c : Thread nD τ).loc main_arg8) :=
  ((W4_arr m ρ c 5).trans (((dat1 (V3 m ρ) c).arrAt_in 5 rfl _).trans (A_eq1 (V3 m ρ) c 5))).symm.trans (W4_main_arg8 m ρ c)

/-- Argument 10 reaches the second kernel as launched: nothing before it writes it. -/
theorem entry_arg10 (c : Dev nD) : V3 m ρ c main_arg10 = m ((c : Thread nD τ).loc main_arg10) :=
  ((W4_arr m ρ c 7).trans (((dat1 (V3 m ρ) c).arrAt_in 7 rfl _).trans (A_eq1 (V3 m ρ) c 7))).symm.trans (W4_main_arg10 m ρ c)

/-- Argument 12 reaches the second kernel as launched: nothing before it writes it. -/
theorem entry_arg12 (c : Dev nD) : V3 m ρ c main_arg12 = m ((c : Thread nD τ).loc main_arg12) :=
  ((W4_arr m ρ c 9).trans (((dat1 (V3 m ρ) c).arrAt_in 9 rfl _).trans (A_eq1 (V3 m ρ) c 9))).symm.trans (W4_main_arg12 m ρ c)

/-- Argument 16 reaches the second kernel as launched: nothing before it writes it. -/
theorem entry_arg16 (c : Dev nD) : V3 m ρ c main_arg16 = m ((c : Thread nD τ).loc main_arg16) :=
  ((W4_arr m ρ c 13).trans (((dat1 (V3 m ρ) c).arrAt_in 13 rfl _).trans (A_eq1 (V3 m ρ) c 13))).symm.trans (W4_main_arg16 m ρ c)

/-- The narrowed copy of argument 7 is argument 7: a change of float format is the identity on extended reals. -/
theorem entry_v1 (c : Dev nD) : V3 m ρ c main_v1 = m ((c : Thread nD τ).loc main_arg7) := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  rfl

/-- The narrowed copy of argument 9 is argument 9: a change of float format is the identity on extended reals. -/
theorem entry_v2 (c : Dev nD) : V3 m ρ c main_v2 = m ((c : Thread nD τ).loc main_arg9) := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results
  rfl

/-- The narrowed copy of argument 11 is argument 11: a change of float format is the identity on extended reals. -/
theorem entry_v3 (c : Dev nD) : V3 m ρ c main_v3 = m ((c : Thread nD τ).loc main_arg11) := by
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results
  rfl

/-- The narrowed copy of argument 15 is argument 15: a change of float format is the identity on extended reals. -/
theorem entry_v4 (c : Dev nD) : V3 m ρ c main_v4 = m ((c : Thread nD τ).loc main_arg15) := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  rfl

/-- Argument 1 is as launched when the first kernel has run. -/
theorem mid_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results

/-- Argument 2 is as launched when the first kernel has run. -/
theorem mid_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- Argument 19 is as launched when the first kernel has run. -/
theorem mid_arg19 (c : Dev nD) : W2 m ρ c (Proc.devRef .tc main_arg19) = m ((c : Thread nD τ).loc main_arg19) := by
  rw [W2_of_ne m ρ c main_arg19 (by decide)]
  show StableHlo.after hostOps0 (W0 m ρ c) (Proc.devRef .tc main_arg19) = _
  after_results

/-! ## The merged weight and bias, by halves -/

/-- A left column of the 102-column weight is argument 13's column. -/
theorem entry_v6_left (c : Dev nD) (k : Fin 4096) (q : Fin 51) :
    V3 m ρ c main_v6 (ix2 k (⟨q.val, by have := q.isLt; omega⟩ : Fin 102)) = m ((c : Thread nD τ).loc main_arg13) (ix2 k q) := by
  show StableHlo.after hostOps1 (W2 m ρ c) (Proc.devRef .tc main_v6) _ = _
  after_results
  rw [W2_of_ne m ρ c main_v6 (by decide)]
  show StableHlo.after hostOps0 (W0 m ρ c) (Proc.devRef .tc main_v6) _ = _
  after_results
  rw [truncf_apply]
  exact concatenate_pair_apply_left (t := S4096x102) (s₁ := S4096x51) (s₂ := S4096x51) (1 : Fin 2) _ _ _ (ix2 k (⟨q.val, by have := q.isLt; omega⟩ : Fin 102)) rfl (ix2 k q) (fun b => by
    match b with
    | ⟨0, _⟩ => rfl
    | ⟨1, _⟩ => rfl)

/-- Column 51 + q of the 102-column weight is argument 17's column q. -/
theorem entry_v6_right (c : Dev nD) (k : Fin 4096) (q : Fin 51) :
    V3 m ρ c main_v6 (ix2 k (⟨51 + q.val, by have := q.isLt; omega⟩ : Fin 102)) = m ((c : Thread nD τ).loc main_arg17) (ix2 k q) := by
  show StableHlo.after hostOps1 (W2 m ρ c) (Proc.devRef .tc main_v6) _ = _
  after_results
  rw [W2_of_ne m ρ c main_v6 (by decide)]
  show StableHlo.after hostOps0 (W0 m ρ c) (Proc.devRef .tc main_v6) _ = _
  after_results
  rw [truncf_apply]
  exact concatenate_pair_apply_right (t := S4096x102) (s₁ := S4096x51) (s₂ := S4096x51) (1 : Fin 2) _ _ _ (ix2 k (⟨51 + q.val, by have := q.isLt; omega⟩ : Fin 102)) rfl rfl (ix2 k q) (fun b hb => by
    match b with
    | ⟨0, _⟩ => rfl
    | ⟨1, _⟩ => exact absurd rfl hb) (by show q.val + 51 = 51 + q.val; omega)

/-- A left entry of the 102-entry bias is argument 14's entry. -/
theorem entry_v7_left (c : Dev nD) (q : Fin 51) :
    V3 m ρ c main_v7 (ix1 (⟨q.val, by have := q.isLt; omega⟩ : Fin 102)) = m ((c : Thread nD τ).loc main_arg14) (ix1 q) := by
  show StableHlo.after hostOps1 (W2 m ρ c) (Proc.devRef .tc main_v7) _ = _
  after_results
  rw [W2_of_ne m ρ c main_v7 (by decide)]
  show StableHlo.after hostOps0 (W0 m ρ c) (Proc.devRef .tc main_v7) _ = _
  after_results
  exact concatenate_pair_apply_left (t := S102) (s₁ := S51) (s₂ := S51) (0 : Fin 1) _ _ _ (ix1 (⟨q.val, by have := q.isLt; omega⟩ : Fin 102)) rfl (ix1 q) (fun b => by
    match b with
    | ⟨0, _⟩ => rfl)

/-- Entry 51 + q of the 102-entry bias is argument 18's entry q. -/
theorem entry_v7_right (c : Dev nD) (q : Fin 51) :
    V3 m ρ c main_v7 (ix1 (⟨51 + q.val, by have := q.isLt; omega⟩ : Fin 102)) = m ((c : Thread nD τ).loc main_arg18) (ix1 q) := by
  show StableHlo.after hostOps1 (W2 m ρ c) (Proc.devRef .tc main_v7) _ = _
  after_results
  rw [W2_of_ne m ρ c main_v7 (by decide)]
  show StableHlo.after hostOps0 (W0 m ρ c) (Proc.devRef .tc main_v7) _ = _
  after_results
  exact concatenate_pair_apply_right (t := S102) (s₁ := S51) (s₂ := S51) (0 : Fin 1) _ _ _ (ix1 (⟨51 + q.val, by have := q.isLt; omega⟩ : Fin 102)) rfl rfl (ix1 q) (fun b hb => by
    match b with
    | ⟨0, _⟩ => exact absurd rfl hb) (by show q.val + 51 = 51 + q.val; omega)

/-! ## The two gathered arrays -/

/-- When the first kernel has run, its output array holds the reference's projection of the object contexts. -/
theorem mid_v8 (c : Dev nD) :
    W2 m ρ c (Proc.devRef .tc main_v8)
      = Cert.ReferenceIdeal.Read.val_main_v3 (F := Ideal) (m ((c : Thread nD τ).loc main_arg0)) (m ((c : Thread nD τ).loc main_arg5)) (m ((c : Thread nD τ).loc main_arg6)) :=
  (W2_arr m ρ c 3).trans ((Cert.KernelIdeal.EmbValue.final m ρ c).trans
    (Cert.ReferenceIdeal.RefValue.emb_eq (m ((c : Thread nD τ).loc main_arg0)) (m ((c : Thread nD τ).loc main_arg5)) (m ((c : Thread nD τ).loc main_arg6))).symm)

set_option maxHeartbeats 1000000 in
/-- The pair-context array the second kernel finds is the reference's pair-context array of the launch arguments. -/
theorem entry_v32 (c : Dev nD) :
    V3 m ρ c main_v32
      = Cert.ReferenceIdeal.Read.val_main_v27 (F := Ideal) (m ((c : Thread nD τ).loc main_arg0)) (m ((c : Thread nD τ).loc main_arg1)) (m ((c : Thread nD τ).loc main_arg5)) (m ((c : Thread nD τ).loc main_arg6)) := by
  show StableHlo.after hostOps1 (W2 m ρ c) (Proc.devRef .tc main_v32) = _
  after_results_simp
  unfold Cert.ReferenceIdeal.Read.val_main_v27
  refine congrArg₂ (fun a b => concatenate (α := EReal) Cert.ReferenceIdeal.S16384x1024 1
    [⟨Cert.ReferenceIdeal.S16384x512, a⟩, ⟨Cert.ReferenceIdeal.S16384x512, b⟩] _) ?_ ?_
  · after_results_simp
    rw [mid_v8 m ρ c, mid_arg1 m ρ c]
    rfl
  · after_results_simp
    rw [mid_v8 m ρ c, mid_arg1 m ρ c]
    rfl

set_option maxHeartbeats 1000000 in
/-- The frequency bias the second kernel finds is the reference's frequency bias of the launch arguments. -/
theorem entry_v46 (c : Dev nD) :
    V3 m ρ c main_v46 = Cert.ReferenceIdeal.Read.val_main_v65 (F := Ideal) (m ((c : Thread nD τ).loc main_arg2)) (m ((c : Thread nD τ).loc main_arg19)) := by
  show StableHlo.after hostOps1 (W2 m ρ c) (Proc.devRef .tc main_v46) = _
  after_results_simp
  rw [mid_arg2 m ρ c, mid_arg19 m ρ c]
  rfl

end Cert.KernelIdeal.PairInputs

end
-- ==== Proof.KernelValue.lean ====
/-
  The kernel program's result, as the reference's own function of the launch arguments.

  The result buffer ends at the second kernel's output array after its last write-back. That array is the
  specification's `logit` of what the second kernel finds in its inputs; those inputs are the launch arguments, the
  two halves of the side-by-side weight and bias, and the reference's own pair-context and frequency-bias arrays; and
  the reference's last stage, read at an index, is the same `logit` of the same arrays. So the two results agree entry
  by entry, hence as arrays.
-/
import proofs.«143274_j39986145525795_2_alg».proof.Proof.NamedRun
import proofs.«143274_j39986145525795_2_alg».proof.Proof.PairArray
import proofs.«143274_j39986145525795_2_alg».proof.Proof.PairInputs
import proofs.«143274_j39986145525795_2_alg».proof.Proof.RefLogit

set_option maxRecDepth 16384

noncomputable section

namespace Cert.KernelIdeal.KernelValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The contents of the result buffer at the last segment boundary: the reference's final stage of the launch
    arguments. -/
theorem result (c : Dev nD) :
    W4 m ρ c (Proc.devRef .tc main_v47)
      = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [Cert.KernelIdeal.NamedRun.result_eq m ρ c,
    Cert.KernelIdeal.PairArray.final (V3 m ρ) c (m ((c : Thread nD τ).loc main_arg13)) (m ((c : Thread nD τ).loc main_arg17)) (m ((c : Thread nD τ).loc main_arg14)) (m ((c : Thread nD τ).loc main_arg18))
      (Cert.KernelIdeal.PairInputs.entry_v6_left m ρ c) (Cert.KernelIdeal.PairInputs.entry_v6_right m ρ c)
      (Cert.KernelIdeal.PairInputs.entry_v7_left m ρ c) (Cert.KernelIdeal.PairInputs.entry_v7_right m ρ c)]
  funext i
  obtain ⟨r, j, rfl⟩ : ∃ (r : Fin 16384) (j : Fin 51), i = ix2 r j := ⟨i 0, i 1, eq_ix2 i⟩
  rw [Cert.ReferenceIdeal.RefValue.result_apply]
  unfold Cert.KernelIdeal.PairArray.G
  rw [Cert.KernelIdeal.PairInputs.entry_v32 m ρ c, Cert.KernelIdeal.PairInputs.entry_v46 m ρ c,
    Cert.KernelIdeal.PairInputs.entry_arg3 m ρ c, Cert.KernelIdeal.PairInputs.entry_arg4 m ρ c,
    Cert.KernelIdeal.PairInputs.entry_v1 m ρ c, Cert.KernelIdeal.PairInputs.entry_arg8 m ρ c,
    Cert.KernelIdeal.PairInputs.entry_v2 m ρ c, Cert.KernelIdeal.PairInputs.entry_arg10 m ρ c,
    Cert.KernelIdeal.PairInputs.entry_v3 m ρ c, Cert.KernelIdeal.PairInputs.entry_arg12 m ρ c,
    Cert.KernelIdeal.PairInputs.entry_v4 m ρ c, Cert.KernelIdeal.PairInputs.entry_arg16 m ρ c]

end Cert.KernelIdeal.KernelValue

end
-- ==== Proof.lean ====
/-
  The certificate's proof: a kernel program of two pipelined kernels among host operations, against its plain
  reference, over the extended reals.

  Both programs compute, for 16384 object pairs and 51 relation classes, a context logit gated by the logistic of the
  sum of a visual logit, a frequency bias and a gate logit (Proof/RelSpec.lean). The kernel program projects the
  object contexts in its first kernel, gathers and concatenates them by pair on the host, and does everything else
  in its second kernel on blocks of 256 pairs, with the context and gate weights side by side in one product; the
  reference does it all with whole-array operations. Every sum is the same finite sum, every change of float format
  is the identity, the logistic is one function in both, and the gathers are the same operations on equal arrays:
  nothing needs the inputs to be finite, and the precondition is never opened.

  The frames of the two kernel programs are generated whole; the reference's frame is its generated run with the
  result dropped; the ideal pass rewrote nothing, so its conjunct is trivial; for the value claim both runs end at
  the reference's own final stage of the launch arguments (Proof/KernelValue.lean for the kernel program, the
  generated run for the reference).
-/
import proofs.«143274_j39986145525795_2_alg».proof.Defs
import proofs.«143274_j39986145525795_2_alg».proof.Proof.Gen.Kernel
import proofs.«143274_j39986145525795_2_alg».proof.Proof.Gen.Kernel.Skeleton
import proofs.«143274_j39986145525795_2_alg».proof.Proof.Gen.Kernel.Launch
import proofs.«143274_j39986145525795_2_alg».proof.Proof.Gen.Kernel.Points
import proofs.«143274_j39986145525795_2_alg».proof.Proof.Gen.Kernel.Frame
import proofs.«143274_j39986145525795_2_alg».proof.Proof.Gen.KernelIdeal
import proofs.«143274_j39986145525795_2_alg».proof.Proof.Gen.KernelIdeal.Skeleton
import proofs.«143274_j39986145525795_2_alg».proof.Proof.Gen.KernelIdeal.Launch
import proofs.«143274_j39986145525795_2_alg».proof.Proof.Gen.KernelIdeal.Points
import proofs.«143274_j39986145525795_2_alg».proof.Proof.Gen.KernelIdeal.Frame
import proofs.«143274_j39986145525795_2_alg».proof.Proof.Gen.ReferenceIdeal
import proofs.«143274_j39986145525795_2_alg».proof.Proof.Gen.ReferenceIdeal.Run
import proofs.«143274_j39986145525795_2_alg».proof.Proof.Gen.ReferenceIdeal.Read
import proofs.«143274_j39986145525795_2_alg».proof.Proof.Gen.Pre_finite_inputs
import proofs.«143274_j39986145525795_2_alg».proof.Proof.NamedRun
import proofs.«143274_j39986145525795_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the reference's final stage of those arguments:
    the kernel program by its run with the result named and the value of that result, the reference by its run. -/
theorem algebraic : Cert.algebraic_KernelIdeal_ReferenceIdeal := by
  intro m ρ m' ρ' _ hagree
  refine ⟨fun c => Cert.ReferenceIdeal.Value.res_main_v78 (F := Ideal) m' c, ?_,
    Cert.ReferenceIdeal.Value.run (F := Ideal) m' ρ'⟩
  refine (θ_run Cert.KernelIdeal.defs _ _).mono (fun r h c => ⟨(h c).1.trans ?_, (h c).2⟩)
    (Cert.KernelIdeal.NamedRun.run (F := Ideal) m ρ)
  show _ = Cert.ReferenceIdeal.Value.res_main_v78 (F := Ideal) m' c
  rw [Cert.KernelIdeal.KernelValue.result m ρ c, Cert.ReferenceIdeal.Read.val_main_v78_eq m' c]
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
